-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg6 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x64 .f32) (main_arg1 : IVec S1600000 32) (main_arg2 : IVec S1600000 32) (main_arg3 : FVec F S64x64 .f32) (main_arg4 : FVec F S64 .f32) (main_arg5 : FVec F S64x32 .f32) (main_arg6 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg5
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg6 main_v13 main_v16
-- ==== Kernel.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S1700000x64 : Shape := ⟨2, ![1700000, 64]⟩
abbrev S1x64 : Shape := ⟨2, ![1, 64]⟩
abbrev S100000x32 : Shape := ⟨2, ![100000, 32]⟩
abbrev S2000x64 : Shape := ⟨2, ![2000, 64]⟩
abbrev S2000x1 : Shape := ⟨2, ![2000, 1]⟩
abbrev S2000x32 : Shape := ⟨2, ![2000, 32]⟩
abbrev S1700000x32 : Shape := ⟨2, ![1700000, 32]⟩
abbrev S1x32 : Shape := ⟨2, ![1, 32]⟩

abbrev nBuf : Space → Nat
  | .hbm => 70
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S100000, .i32⟩
  | .hbm, ⟨8, _⟩ => ⟨S1700000, .i32⟩
  | .hbm, ⟨9, _⟩ => ⟨S1700000, .i32⟩
  | .hbm, ⟨10, _⟩ => ⟨S_, .f32⟩
  | .hbm, ⟨11, _⟩ => ⟨S1700000, .f32⟩
  | .hbm, ⟨12, _⟩ => ⟨S_, .f32⟩
  | .hbm, ⟨13, _⟩ => ⟨S100000, .f32⟩
  | .hbm, ⟨14, _⟩ => ⟨S1700000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000x64, .f32⟩
  | .hbm, ⟨46, _⟩ => ⟨S_, .f32⟩
  | .hbm, ⟨47, _⟩ => ⟨S100000x64, .f32⟩
  | .hbm, ⟨48, _⟩ => ⟨S1700000x1, .i32⟩
  | .hbm, ⟨49, _⟩ => ⟨S100000x64, .f32⟩
  | .hbm, ⟨50, _⟩ => ⟨S100000x1, .f32⟩
  | .hbm, ⟨51, _⟩ => ⟨S100000x1, .f32⟩
  | .hbm, ⟨52, _⟩ => ⟨S1x64, .f32⟩
  | .hbm, ⟨53, _⟩ => ⟨S100000x32, .f32⟩
  | .hbm, ⟨54, _⟩ => ⟨S_, .i32⟩
  | .hbm, ⟨55, _⟩ => ⟨S1700000, .i32⟩
  | .hbm, ⟨56, _⟩ => ⟨S1700000, .i1⟩
  | .hbm, ⟨57, _⟩ => ⟨S_, .i32⟩
  | .hbm, ⟨58, _⟩ => ⟨S1700000, .i32⟩
  | .hbm, ⟨59, _⟩ => ⟨S1700000, .i32⟩
  | .hbm, ⟨60, _⟩ => ⟨S1700000, .i32⟩
  | .hbm, ⟨61, _⟩ => ⟨S1700000x1, .i32⟩
  | .hbm, ⟨62, _⟩ => ⟨S1700000x32, .f32⟩
  | .hbm, ⟨63, _⟩ => ⟨S_, .f32⟩
  | .hbm, ⟨64, _⟩ => ⟨S100000x32, .f32⟩
  | .hbm, ⟨65, _⟩ => ⟨S1700000x1, .i32⟩
  | .hbm, ⟨66, _⟩ => ⟨S100000x32, .f32⟩
  | .hbm, ⟨67, _⟩ => ⟨S100000x1, .f32⟩
  | .hbm, ⟨68, _⟩ => ⟨S1x32, .f32⟩
  | .hbm, ⟨69, _⟩ => ⟨S100000x32, .f32⟩
  | .local _ .vmem, ⟨0, _⟩ => ⟨S2000x64, .f32⟩
  | .local _ .vmem, ⟨1, _⟩ => ⟨S2000x64, .f32⟩
  | .local _ .vmem, ⟨2, _⟩ => ⟨S2000x1, .f32⟩
  | .local _ .vmem, ⟨3, _⟩ => ⟨S2000x1, .f32⟩
  | .local _ .vmem, ⟨4, _⟩ => ⟨S2000x1, .f32⟩
  | .local _ .vmem, ⟨5, _⟩ => ⟨S2000x1, .f32⟩
  | .local _ .vmem, ⟨6, _⟩ => ⟨S64x64, .f32⟩
  | .local _ .vmem, ⟨7, _⟩ => ⟨S1x64, .f32⟩
  | .local _ .vmem, ⟨8, _⟩ => ⟨S64x32, .f32⟩
  | .local _ .vmem, ⟨9, _⟩ => ⟨S2000x32, .f32⟩
  | .local _ .vmem, ⟨10, _⟩ => ⟨S2000x32, .f32⟩
  | .local _ .vmem, ⟨11, _⟩ => ⟨S2000x32, .f32⟩
  | .local _ .vmem, ⟨12, _⟩ => ⟨S2000x32, .f32⟩
  | .local _ .vmem, ⟨13, _⟩ => ⟨S2000x1, .f32⟩
  | .local _ .vmem, ⟨14, _⟩ => ⟨S2000x1, .f32⟩
  | .local _ .vmem, ⟨15, _⟩ => ⟨S1x32, .f32⟩
  | .local _ .vmem, ⟨16, _⟩ => ⟨S2000x32, .f32⟩
  | .local _ .vmem, ⟨17, _⟩ => ⟨S2000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v10 : Ref sig .tc := ⟨.hbm, 23, rfl⟩
abbrev main_cst_3 : Ref sig .tc := ⟨.hbm, 24, rfl⟩
abbrev main_v11 : Ref sig .tc := ⟨.hbm, 25, rfl⟩
abbrev main_v12 : Ref sig .tc := ⟨.hbm, 26, rfl⟩
abbrev main_cst_4 : Ref sig .tc := ⟨.hbm, 27, rfl⟩
abbrev main_call1_v0 : Ref sig .tc := ⟨.hbm, 28, rfl⟩
abbrev main_call1_v1 : Ref sig .tc := ⟨.hbm, 29, rfl⟩
abbrev main_v13 : Ref sig .tc := ⟨.hbm, 30, rfl⟩
abbrev main_cst_5 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c : Ref sig .tc := ⟨.hbm, 37, rfl⟩
abbrev main_v19 : Ref sig .tc := ⟨.hbm, 38, rfl⟩
abbrev main_v20 : Ref sig .tc := ⟨.hbm, 39, rfl⟩
abbrev main_c_6 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_7 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_8 : Ref sig .tc := ⟨.hbm, 54, rfl⟩
abbrev main_v33 : Ref sig .tc := ⟨.hbm, 55, rfl⟩
abbrev main_v34 : Ref sig .tc := ⟨.hbm, 56, rfl⟩
abbrev main_c_9 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_10 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  shapeCasts_S100000_S100000x1 : S100000.ShapeCasts S100000x1
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x32_S64x32_0_0 : ∀ a, (![0, 0] : Fin 2 → Nat) a + S64x32.size a ≤ S64x32.size a
  h_S64x32 : 0 < S64x32.numel
  inb_S2000x32_S2000x32_0_0 : ∀ a, (![0, 0] : Fin 2 → Nat) a + S2000x32.size a ≤ S2000x32.size a
  h_S2000x32 : 0 < S2000x32.numel
  bcast_S_S100000x32 : S_.BroadcastsInDim S100000x32 (![] : Fin 0 → Fin S100000x32.rank)
  shapeCasts_S32_S1x32 : S32.ShapeCasts S1x32
  shapeCasts_S2000x32_S2000x32 : S2000x32.ShapeCasts S2000x32
  broadcasts_S2000x1_S2000x32 : S2000x1.Broadcasts S2000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  scatter_S100000_S1700000x1_S1700000_n_0_0_1_wf : ScatterDims.WF S100000 S1700000x1 S1700000 [] [0] [0] 1
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S2000x64_S64x64_S2000x64_1_0_0_1_n_n_wf : DotDims.WF S2000x64 S64x64 S2000x64 [1] [0] [0] [1] [] []
  dot_S2000x64_S64x32_S2000x32_1_0_0_1_n_n_wf : DotDims.WF S2000x64 S64x32 S2000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x32.size a ≤ S64x32.size a
  hwx0_5 : ∀ i : grid0.Coords, EltTy.bits .f32 = 32 ∨ (Rect.block (s := S64x32) S64x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x32.size a ≤ S100000x32.size a
  hwx0_6 : ∀ i : grid0.Coords, EltTy.bits .f32 = 32 ∨ (Rect.block (s := S100000x32) S2000x32.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S100000x32.size a
  hwx1_0 : ∀ i : grid1.Coords, EltTy.bits .f32 = 32 ∨ (Rect.block (s := S100000x32) S2000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x32.size a ≤ S100000x32.size a
  hwx1_3 : ∀ i : grid1.Coords, EltTy.bits .f32 = 32 ∨ (Rect.block (s := S100000x32) S2000x32.size (cc1_transform_3 i) (hinb1_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_v28) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v32) S2000x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v42) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S2000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S1700000x64 : Shape := ⟨2, ![1700000, 64]⟩
abbrev S1x64 : Shape := ⟨2, ![1, 64]⟩
abbrev S100000x32 : Shape := ⟨2, ![100000, 32]⟩
abbrev S1x32 : Shape := ⟨2, ![1, 32]⟩

abbrev nBuf : Space → Nat
  | .hbm => 83
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S100000, .i32⟩
  | .hbm, ⟨8, _⟩ => ⟨S1700000, .i32⟩
  | .hbm, ⟨9, _⟩ => ⟨S1700000, .i32⟩
  | .hbm, ⟨10, _⟩ => ⟨S_, .f32⟩
  | .hbm, ⟨11, _⟩ => ⟨S1700000, .f32⟩
  | .hbm, ⟨12, _⟩ => ⟨S_, .f32⟩
  | .hbm, ⟨13, _⟩ => ⟨S100000, .f32⟩
  | .hbm, ⟨14, _⟩ => ⟨S1700000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000x64, .f32⟩
  | .hbm, ⟨46, _⟩ => ⟨S_, .f32⟩
  | .hbm, ⟨47, _⟩ => ⟨S100000x64, .f32⟩
  | .hbm, ⟨48, _⟩ => ⟨S1700000x1, .i32⟩
  | .hbm, ⟨49, _⟩ => ⟨S100000x64, .f32⟩
  | .hbm, ⟨50, _⟩ => ⟨S100000x1, .f32⟩
  | .hbm, ⟨51, _⟩ => ⟨S100000x64, .f32⟩
  | .hbm, ⟨52, _⟩ => ⟨S100000x64, .f32⟩
  | .hbm, ⟨53, _⟩ => ⟨S100000x64, .f32⟩
  | .hbm, ⟨54, _⟩ => ⟨S1x64, .f32⟩
  | .hbm, ⟨55, _⟩ => ⟨S100000x64, .f32⟩
  | .hbm, ⟨56, _⟩ => ⟨S100000x64, .f32⟩
  | .hbm, ⟨57, _⟩ => ⟨S_, .f32⟩
  | .hbm, ⟨58, _⟩ => ⟨S100000x64, .f32⟩
  | .hbm, ⟨59, _⟩ => ⟨S100000x64, .f32⟩
  | .hbm, ⟨60, _⟩ => ⟨S100000x1, .f32⟩
  | .hbm, ⟨61, _⟩ => ⟨S100000x64, .f32⟩
  | .hbm, ⟨62, _⟩ => ⟨S100000x64, .f32⟩
  | .hbm, ⟨63, _⟩ => ⟨S_, .i32⟩
  | .hbm, ⟨64, _⟩ => ⟨S1700000, .i32⟩
  | .hbm, ⟨65, _⟩ => ⟨S1700000, .i1⟩
  | .hbm, ⟨66, _⟩ => ⟨S_, .i32⟩
  | .hbm, ⟨67, _⟩ => ⟨S1700000, .i32⟩
  | .hbm, ⟨68, _⟩ => ⟨S1700000, .i32⟩
  | .hbm, ⟨69, _⟩ => ⟨S1700000, .i32⟩
  | .hbm, ⟨70, _⟩ => ⟨S1700000x1, .i32⟩
  | .hbm, ⟨71, _⟩ => ⟨S1700000x64, .f32⟩
  | .hbm, ⟨72, _⟩ => ⟨S_, .f32⟩
  | .hbm, ⟨73, _⟩ => ⟨S100000x64, .f32⟩
  | .hbm, ⟨74, _⟩ => ⟨S1700000x1, .i32⟩
  | .hbm, ⟨75, _⟩ => ⟨S100000x64, .f32⟩
  | .hbm, ⟨76, _⟩ => ⟨S100000x1, .f32⟩
  | .hbm, ⟨77, _⟩ => ⟨S100000x64, .f32⟩
  | .hbm, ⟨78, _⟩ => ⟨S100000x64, .f32⟩
  | .hbm, ⟨79, _⟩ => ⟨S100000x32, .f32⟩
  | .hbm, ⟨80, _⟩ => ⟨S1x32, .f32⟩
  | .hbm, ⟨81, _⟩ => ⟨S100000x32, .f32⟩
  | .hbm, ⟨82, _⟩ => ⟨S100000x32, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v10 : Ref sig .tc := ⟨.hbm, 23, rfl⟩
abbrev main_cst_3 : Ref sig .tc := ⟨.hbm, 24, rfl⟩
abbrev main_v11 : Ref sig .tc := ⟨.hbm, 25, rfl⟩
abbrev main_v12 : Ref sig .tc := ⟨.hbm, 26, rfl⟩
abbrev main_cst_4 : Ref sig .tc := ⟨.hbm, 27, rfl⟩
abbrev main_call1_v0 : Ref sig .tc := ⟨.hbm, 28, rfl⟩
abbrev main_call1_v1 : Ref sig .tc := ⟨.hbm, 29, rfl⟩
abbrev main_v13 : Ref sig .tc := ⟨.hbm, 30, rfl⟩
abbrev main_cst_5 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c : Ref sig .tc := ⟨.hbm, 37, rfl⟩
abbrev main_v19 : Ref sig .tc := ⟨.hbm, 38, rfl⟩
abbrev main_v20 : Ref sig .tc := ⟨.hbm, 39, rfl⟩
abbrev main_c_6 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_7 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_call2_cst : Ref sig .tc := ⟨.hbm, 57, rfl⟩
abbrev main_call2_v0 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_8 : Ref sig .tc := ⟨.hbm, 63, rfl⟩
abbrev main_v40 : Ref sig .tc := ⟨.hbm, 64, rfl⟩
abbrev main_v41 : Ref sig .tc := ⟨.hbm, 65, rfl⟩
abbrev main_c_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_10 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩

abbrev nD : Nat := 1
abbrev τ : Topo := Topo.v7x

variable {F : FTy → Type} [FloatOps F]

class Facts₀ : Prop where
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.RunOut.lean ====
/-
  The idealized kernel's whole run with its result named.

  The program is two grid launches among stretches of host operations. Every weakly fair execution from any memory
  terminates without a fault; the result buffer then holds the contents the last boundary of the run assigns to it
  (the second launch's output array after its write-backs), and the seven argument arrays are as launched.
-/
import proofs.«149882_j33784212750626_2_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at the last boundary's contents
    and each argument array as launched. -/
theorem run_out : θ_run defs (onTc (τ := τ) (main (F := F))) ⟨m, fun _ => 0, ρ⟩ (fun r => ∀ c : Dev nD,
      r.2.mem ((c.tc : Thread nD τ).loc main_v45) = W8 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v45 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.Out

end
-- ==== Proof.LibMatmulPlain.lean ====
/-
  A rows-by-columns matrix product into a zero accumulator, read at an index on the extended reals.

  For `A : [M, K]` and `B : [K, N]` contracted on `A`'s last and `B`'s first axis, the product accumulated into the
  zero splat is, at `(i, j)`, the finite sum `∑ k, A (i, k) * B (k, j)`: no rounding and no chunk order is left at the
  exact values, and the contraction index with its one axis is the coordinate `k`.
-/
import Idealize.ShloMosaic.PureOps.Ideal
import Idealize.ShloMosaic.PureOps.Ideal.Laws
import Idealize.ShloMosaic.Lib.ValueIdx

noncomputable section

namespace Cert.LibMatmulPlain

open Idealize.ShloMosaic Idealize.ShloMosaic.ValueIdx

/-- The plain product `[M, K] × [K, N]` into the zero accumulator at `(i, j)` is `∑ k, A (i, k) * B (k, j)`. -/
theorem matmul_zero_apply {M K N : ℕ} {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ k : Fin K, A (ix2 i k) * B (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.LibMatmulPlain

end
-- ==== Proof.LibBiasRows.lean ====
/-
  A bias row added to every row of a matrix, with or without a rectifier, on the extended reals.

  For `a : [n, d]` and a row `b : [1, d]` the sum's entry (r, j) is `a (r, j) + b (0, j)`; the rectified layer takes the
  larger of that and the zero word's value.  The vector unit spells the sum as a cast of each operand to its own shape,
  a broadcast of the row down the n rows and an elementwise addition, and the rectifier as an elementwise maximum
  against a broadcast scalar.  An entry reads one entry of the matrix and one of the row, which the congruence lemmas
  record.  Nothing here needs finiteness.
-/
import Idealize.ShloMosaic.PureOps.Ideal
import Idealize.ShloMosaic.Lib.ValueIdx
import Idealize.ShloMosaic.Lib.Pipeline.Value

noncomputable section

namespace Cert.LibBiasRows

open Idealize.ShloMosaic Idealize.ShloMosaic.ValueIdx

/-- Entry (r, j) of the matrix with the row added to each of its rows. -/
def addRow {n d : ℕ} (a : (⟨2, ![n, d]⟩ : Shape).Idx → EReal) (b : (⟨2, ![1, d]⟩ : Shape).Idx → EReal) :
    (⟨2, ![n, d]⟩ : Shape).Idx → EReal :=
  fun i => a i + b (ix2 ⟨0, Nat.one_pos⟩ (i 1))

/-- The same followed by the rectifier: the larger of the sum and the zero word's value. -/
def reluRow {n d : ℕ} (a : (⟨2, ![n, d]⟩ : Shape).Idx → EReal) (b : (⟨2, ![1, d]⟩ : Shape).Idx → EReal) :
    (⟨2, ![n, d]⟩ : Shape).Idx → EReal :=
  fun i => max (addRow a b i) (Ideal.ofBits .f32 0x00000000#32)

/-- An entry of the sum reads the matrix at that entry and the row at its column. -/
theorem addRow_congr {n n' d : ℕ} (a : (⟨2, ![n, d]⟩ : Shape).Idx → EReal) (a' : (⟨2, ![n', d]⟩ : Shape).Idx → EReal)
    (b b' : (⟨2, ![1, d]⟩ : Shape).Idx → EReal) (i : (⟨2, ![n, d]⟩ : Shape).Idx) (i' : (⟨2, ![n', d]⟩ : Shape).Idx)
    (ha : a i = a' i') (hb : b (ix2 ⟨0, Nat.one_pos⟩ (i 1)) = b' (ix2 ⟨0, Nat.one_pos⟩ (i' 1))) :
    addRow a b i = addRow a' b' i' := by
  unfold addRow
  rw [ha, hb]

/-- The same for the rectified layer. -/
theorem reluRow_congr {n n' d : ℕ} (a : (⟨2, ![n, d]⟩ : Shape).Idx → EReal) (a' : (⟨2, ![n', d]⟩ : Shape).Idx → EReal)
    (b b' : (⟨2, ![1, d]⟩ : Shape).Idx → EReal) (i : (⟨2, ![n, d]⟩ : Shape).Idx) (i' : (⟨2, ![n', d]⟩ : Shape).Idx)
    (ha : a i = a' i') (hb : b (ix2 ⟨0, Nat.one_pos⟩ (i 1)) = b' (ix2 ⟨0, Nat.one_pos⟩ (i' 1))) :
    reluRow a b i = reluRow a' b' i' := by
  unfold reluRow
  rw [addRow_congr a a' b b' i i' ha hb]

/-- A row `[1, d]` broadcast down n rows, at entry (r, j), is the row at (0, j). -/
theorem row_broadcast {n d : ℕ} (b : (⟨2, ![1, d]⟩ : Shape).Idx → EReal)
    (h : (⟨2, ![1, d]⟩ : Shape).Broadcasts ⟨2, ![n, d]⟩) (i : (⟨2, ![n, d]⟩ : Shape).Idx) :
    broadcastTo ⟨2, ![n, d]⟩ b h i = b (ix2 ⟨0, Nat.one_pos⟩ (i 1)) := by
  refine broadcastTo_apply b h i (ix2 ⟨0, Nat.one_pos⟩ (i 1)) (fun a => ?_)
  match a with
  | ⟨0, _⟩ => exact (if_pos rfl).symm
  | ⟨1, _⟩ =>
    show (i 1).val = if d = 1 then 0 else (i 1).val
    have hlt : (i 1).val < d := idx2_lt1 i
    split
    · omega
    · rfl

/-- A vector `[d]` laid out as a row `[1, d]`, at (0, j), is the vector at j. -/
theorem row_of_vector {d : ℕ} (b : (⟨1, ![d]⟩ : Shape).Idx → EReal) (h : (⟨1, ![d]⟩ : Shape).ShapeCasts ⟨2, ![1, d]⟩)
    (j : Fin d) : shapeCast ⟨2, ![1, d]⟩ b h (ix2 ⟨0, Nat.one_pos⟩ j) = b (ix1 j) := by
  refine (shapeCast_addUnit_apply ![d] b h _).trans (congrArg b (funext fun a => ?_))
  match a with
  | ⟨0, _⟩ => rfl

/-- The vector unit's spelling of the sum, at an entry. -/
theorem vec_addRow {n d : ℕ} (x : FVec Ideal ⟨2, ![n, d]⟩ .f32) (b : FVec Ideal ⟨2, ![1, d]⟩ .f32)
    (h0 : (⟨2, ![n, d]⟩ : Shape).ShapeCasts ⟨2, ![n, d]⟩) (h1 : (⟨2, ![1, d]⟩ : Shape).ShapeCasts ⟨2, ![1, d]⟩)
    (h2 : (⟨2, ![1, d]⟩ : Shape).Broadcasts ⟨2, ![n, d]⟩) (i : (⟨2, ![n, d]⟩ : Shape).Idx) :
    addf (shapeCast ⟨2, ![n, d]⟩ x h0) (broadcastTo ⟨2, ![n, d]⟩ (shapeCast ⟨2, ![1, d]⟩ b h1) h2) i = addRow x b i := by
  rw [shapeCast_self, shapeCast_self]
  show x i + broadcastTo ⟨2, ![n, d]⟩ b h2 i = x i + b (ix2 ⟨0, Nat.one_pos⟩ (i 1))
  rw [row_broadcast]

/-- The vector unit's spelling of the rectified layer, at an entry. -/
theorem vec_reluRow {n d : ℕ} (x : FVec Ideal ⟨2, ![n, d]⟩ .f32) (b : FVec Ideal ⟨2, ![1, d]⟩ .f32)
    (h0 : (⟨2, ![n, d]⟩ : Shape).ShapeCasts ⟨2, ![n, d]⟩) (h1 : (⟨2, ![1, d]⟩ : Shape).ShapeCasts ⟨2, ![1, d]⟩)
    (h2 : (⟨2, ![1, d]⟩ : Shape).Broadcasts ⟨2, ![n, d]⟩) (i : (⟨2, ![n, d]⟩ : Shape).Idx) :
    maximumf (addf (shapeCast ⟨2, ![n, d]⟩ x h0) (broadcastTo ⟨2, ![n, d]⟩ (shapeCast ⟨2, ![1, d]⟩ b h1) h2))
        (broadcast ⟨2, ![n, d]⟩ (FloatOps.ofBits (F := Ideal) .f32 0x00000000#32)) i = reluRow x b i := by
  show max (addf (shapeCast ⟨2, ![n, d]⟩ x h0) (broadcastTo ⟨2, ![n, d]⟩ (shapeCast ⟨2, ![1, d]⟩ b h1) h2) i) _ = max (addRow x b i) _
  rw [vec_addRow]
  rfl

end Cert.LibBiasRows

end
-- ==== Proof.LibDenseRelu.lean ====
/-
  A dense map with a bias row and a rectifier, as a vector unit spells it, read at an entry on the extended reals.

  For `a : [n, K]`, `w : [K, d]` and a bias row `b : [1, d]`, the product accumulated into the zero splat, plus the row
  broadcast down the n rows, rectified against the splat of the zero word, is at (r, j)
      max( ∑ k, a (r, k) · w (k, j) + b (0, j), 0 ).
  The operands may be in any float format (a change of format is the identity at the exact values); nothing here
  needs finiteness, and the extents are arbitrary.
-/
import Idealize.ShloMosaic.PureOps.Ideal
import Idealize.ShloMosaic.PureOps.Ideal.Laws
import Idealize.ShloMosaic.Lib.ValueIdx
import Idealize.ShloMosaic.Lib.Pipeline.Value
import proofs.«149882_j33784212750626_2_alg».proof.Proof.LibMatmulPlain
import proofs.«149882_j33784212750626_2_alg».proof.Proof.LibBiasRows

noncomputable section

namespace Cert.LibDenseRelu

open Idealize.ShloMosaic Idealize.ShloMosaic.ValueIdx

/-- The affine part: product into the zero accumulator plus the broadcast bias row (the row cast to its own shape
    first, as the vector unit prints it), at (r, j). -/
theorem vec_dense {n K d : ℕ} {φ₁ φ₂ : FTy} (prec : Option ContractPrecision)
    (a : FVec Ideal ⟨2, ![n, K]⟩ φ₁) (w : FVec Ideal ⟨2, ![K, d]⟩ φ₂) (b : FVec Ideal ⟨2, ![1, d]⟩ .f32)
    (h1 : (⟨2, ![1, d]⟩ : Shape).ShapeCasts ⟨2, ![1, d]⟩) (h2 : (⟨2, ![1, d]⟩ : Shape).Broadcasts ⟨2, ![n, d]⟩)
    (r : Fin n) (j : Fin d) :
    addf (FloatOps.matmul (DotDims.plain n K d) prec a w (constant ⟨2, ![n, d]⟩ .f32 0x00000000#32))
        (broadcastTo ⟨2, ![n, d]⟩ (shapeCast ⟨2, ![1, d]⟩ b h1) h2) (ix2 r j)
      = (∑ k : Fin K, a (ix2 r k) * w (ix2 k j)) + b (ix2 ⟨0, Nat.one_pos⟩ j) := by
  show FloatOps.matmul (DotDims.plain n K d) prec a w (constant ⟨2, ![n, d]⟩ .f32 0x00000000#32) (ix2 r j)
      + broadcastTo ⟨2, ![n, d]⟩ (shapeCast ⟨2, ![1, d]⟩ b h1) h2 (ix2 r j) = _
  rw [Cert.LibMatmulPlain.matmul_zero_apply, shapeCast_self, Cert.LibBiasRows.row_broadcast]
  rfl

/-- The rectified layer at (r, j). -/
theorem vec_dense_relu {n K d : ℕ} {φ₁ φ₂ : FTy} (prec : Option ContractPrecision)
    (a : FVec Ideal ⟨2, ![n, K]⟩ φ₁) (w : FVec Ideal ⟨2, ![K, d]⟩ φ₂) (b : FVec Ideal ⟨2, ![1, d]⟩ .f32)
    (h1 : (⟨2, ![1, d]⟩ : Shape).ShapeCasts ⟨2, ![1, d]⟩) (h2 : (⟨2, ![1, d]⟩ : Shape).Broadcasts ⟨2, ![n, d]⟩)
    (r : Fin n) (j : Fin d) :
    maximumf (addf (FloatOps.matmul (DotDims.plain n K d) prec a w (constant ⟨2, ![n, d]⟩ .f32 0x00000000#32))
        (broadcastTo ⟨2, ![n, d]⟩ (shapeCast ⟨2, ![1, d]⟩ b h1) h2))
        (broadcast ⟨2, ![n, d]⟩ (FloatOps.ofBits (F := Ideal) .f32 0x00000000#32)) (ix2 r j)
      = max ((∑ k : Fin K, a (ix2 r k) * w (ix2 k j)) + b (ix2 ⟨0, Nat.one_pos⟩ j)) (Ideal.ofBits .f32 0x00000000#32) := by
  show max (addf (FloatOps.matmul (DotDims.plain n K d) prec a w (constant ⟨2, ![n, d]⟩ .f32 0x00000000#32))
        (broadcastTo ⟨2, ![n, d]⟩ (shapeCast ⟨2, ![1, d]⟩ b h1) h2) (ix2 r j)) _ = _
  rw [vec_dense]
  rfl

end Cert.LibDenseRelu

end
-- ==== Proof.LibKeepdims.lean ====
/-
  A column kept as a unit axis, read at an index.

  A reduction that keeps its axis leaves a column `[a, 1]`: the vector `[a]` re-laid with a trailing unit axis, which
  reads at `(i, u)` the vector at `i`; and that column spread over `b` lanes reads at `(i, j)` the column at
  `(i, 0)`. Both hold for any element type.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.HiddenRows.lean ====
/-
  The first grid launch, read as one function of the arrays it finds.

  The launch walks 50 blocks of 2000 rows. At row `r` (block `r / 2000`, row `r % 2000` inside it) and column `j` the body
  stores

      ∑ k, (max (∑ q, (A (r, q) · D (r, 0)) · W1 (q, k) + B (0, k)) 0 · S (r, 0)) · W2 (k, j)

  of the aggregated messages `A`, the two scale columns `D`, `S`, and the whole weight and bias arrays: a row depends only
  on the same row of `A`, `D`, `S`. The blocks tile the output, so after the launch the output array holds this function
  everywhere. (The roundings to a narrower format on the way into the two products are the identity on exact values.)
-/
import proofs.«149882_j33784212750626_2_alg».proof.Proof.Gen.KernelIdeal.Frame
import Idealize.ShloMosaic.Lib.Pipeline.Value
import Idealize.ShloMosaic.Lib.ValueIdx
import proofs.«149882_j33784212750626_2_alg».proof.Proof.LibDenseRelu
import proofs.«149882_j33784212750626_2_alg».proof.Proof.LibKeepdims

set_option maxRecDepth 16384

noncomputable section

namespace Cert.KernelIdeal.Hidden

open Cert.KernelIdeal Cert.KernelIdeal.Gen Idealize.ShloMosaic Idealize.ShloMosaic.ValueIdx Idealize.ShloMosaic.TcCoe Idealize.SL.Sem
open Idealize.ShloMosaic.Pipeline (Dat)

/-- The value the body stores at row `r`, column `j`, from the arrays' rows. -/
def rowsOutAt (A : Vec Ideal S100000x64 .f32) (D S : Vec Ideal S100000x1 .f32) (W1 : Vec Ideal S64x64 .f32)
    (B : Vec Ideal S1x64 .f32) (W2 : Vec Ideal S64x32 .f32) (r : Fin 100000) (j : Fin 32) : EReal :=
  ∑ k : Fin 64, (max ((∑ q : Fin 64, (A (ix2 r q) * D (ix2 r (0 : Fin 1))) * W1 (ix2 q k)) + B (ix2 (0 : Fin 1) k))
    (Ideal.ofBits .f32 0x00000000#32) * S (ix2 r (0 : Fin 1))) * W2 (ix2 k j)

/-- The output array as one function of the input arrays. -/
def rowsOut (A : Vec Ideal S100000x64 .f32) (D S : Vec Ideal S100000x1 .f32) (W1 : Vec Ideal S64x64 .f32)
    (B : Vec Ideal S1x64 .f32) (W2 : Vec Ideal S64x32 .f32) : Vec Ideal S100000x32 .f32 :=
  fun i => rowsOutAt A D S W1 B W2 (i 0) (i 1)

/-- The body's stored value at row `p` of a block, column `j`: two plain products, a bias row, a rectifier and the two
    row scales. -/
theorem pay_apply (x0 : Vec Ideal S2000x64 .f32) (x1 x2 : Vec Ideal S2000x1 .f32) (x3 : Vec Ideal S64x64 .f32)
    (x4 : Vec Ideal S1x64 .f32) (x5 : Vec Ideal S64x32 .f32) (p : Fin 2000) (j : Fin 32) :
    k0_pay1 x0 x1 x2 x3 x4 x5 (ix2 p j)
      = ∑ k : Fin 64, (max ((∑ q : Fin 64, (x0 (ix2 p q) * x1 (ix2 p (0 : Fin 1))) * x3 (ix2 q k)) + x4 (ix2 (0 : Fin 1) k))
          (Ideal.ofBits .f32 0x00000000#32) * x2 (ix2 p (0 : Fin 1))) * x5 (ix2 k j) := by
  unfold k0_pay1
  refine (Cert.LibMatmulPlain.matmul_zero_apply none _ _ p j).trans ?_
  refine Finset.sum_congr rfl fun k _ => ?_
  rw [truncf_apply, truncf_apply, mulf_apply]
  refine congrArg₂ (· * ·) (congrArg₂ (· * ·) ?_ ?_) rfl
  · refine (Cert.LibDenseRelu.vec_dense_relu none _ _ x4 _ _ p k).trans ?_
    refine congrArg (fun s => max (s + x4 (ix2 (0 : Fin 1) k)) (Ideal.ofBits .f32 0x00000000#32)) (Finset.sum_congr rfl fun q _ => ?_)
    rw [truncf_apply, truncf_apply, mulf_apply, shapeCast_self, shapeCast_self, Cert.LibKeepdims.broadcastTo_a1_ab_apply]
  · rw [shapeCast_self, Cert.LibKeepdims.broadcastTo_a1_ab_apply]

variable (V : (c : Dev nD) → (b : Ref sig .tc) → Buf (Elt Ideal) ((c : Thread nD τ).loc b))

theorem hz : (![0, 0] : Fin 2 → Nat) = fun _ => 0 := funext fun a => by fin_cases a <;> rfl

/-- The printed block indices over the grid: the three row-blocked inputs and the output move with the point on the
    row axis; the weight and bias arrays are one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The array row that row `p` of block `t` is. -/
def rowAt (t : Fin cfg0.N) (p : Fin 2000) : Fin 100000 :=
  ⟨t.val * 2000 + p.val, by have : t.val < 50 := t.isLt; have := p.isLt; omega⟩

theorem blk0 (c : Dev nD) (t : Fin cfg0.N) (p : Fin 2000) (q : Fin 64) :
    iblk0 V c 0 t (ix2 p q) = V c main_v28 (ix2 (rowAt t p) q) := by
  obtain ⟨e0, e1, -⟩ := idx_facts t
  show V c main_v28 (((cfg0.win 0).blk t).view.emb (ix2 p q)) = V c main_v28 (ix2 (rowAt t p) q)
  refine congrArg (V c main_v28) (funext fun a => Fin.ext ?_)
  match a with
  | ⟨0, _⟩ => show win0_0.index t (0 : Fin 2) * 2000 + 1 * p.val = t.val * 2000 + p.val; rw [e0]; omega
  | ⟨1, _⟩ => show win0_0.index t (1 : Fin 2) * 64 + 1 * q.val = q.val; rw [e1]; omega

theorem blk1 (c : Dev nD) (t : Fin cfg0.N) (p : Fin 2000) :
    iblk0 V c 1 t (ix2 p (0 : Fin 1)) = V c main_v29 (ix2 (rowAt t p) (0 : Fin 1)) := by
  obtain ⟨-, -, e0, e1, -⟩ := idx_facts t
  show V c main_v29 (((cfg0.win 1).blk t).view.emb (ix2 p (0 : Fin 1))) = V c main_v29 (ix2 (rowAt t p) (0 : Fin 1))
  refine congrArg (V c main_v29) (funext fun a => Fin.ext ?_)
  match a with
  | ⟨0, _⟩ => show win0_1.index t (0 : Fin 2) * 2000 + 1 * p.val = t.val * 2000 + p.val; rw [e0]; omega
  | ⟨1, _⟩ => show win0_1.index t (1 : Fin 2) * 1 + 1 * 0 = 0; rw [e1]

theorem blk2 (c : Dev nD) (t : Fin cfg0.N) (p : Fin 2000) :
    iblk0 V c 2 t (ix2 p (0 : Fin 1)) = V c main_v30 (ix2 (rowAt t p) (0 : Fin 1)) := by
  obtain ⟨-, -, -, -, e0, e1, -⟩ := idx_facts t
  show V c main_v30 (((cfg0.win 2).blk t).view.emb (ix2 p (0 : Fin 1))) = V c main_v30 (ix2 (rowAt t p) (0 : Fin 1))
  refine congrArg (V c main_v30) (funext fun a => Fin.ext ?_)
  match a with
  | ⟨0, _⟩ => show win0_2.index t (0 : Fin 2) * 2000 + 1 * p.val = t.val * 2000 + p.val; rw [e0]; omega
  | ⟨1, _⟩ => show win0_2.index t (1 : Fin 2) * 1 + 1 * 0 = 0; rw [e1]

theorem blk3 (c : Dev nD) (t : Fin cfg0.N) (q k : Fin 64) :
    iblk0 V c 3 t (ix2 q k) = V c main_arg3 (ix2 q k) := by
  obtain ⟨-, -, -, -, -, -, e0, e1, -⟩ := idx_facts t
  show V c main_arg3 (((cfg0.win 3).blk t).view.emb (ix2 q k)) = V c main_arg3 (ix2 q k)
  refine congrArg (V c main_arg3) (funext fun a => Fin.ext ?_)
  match a with
  | ⟨0, _⟩ => show win0_3.index t (0 : Fin 2) * 64 + 1 * q.val = q.val; rw [e0]; omega
  | ⟨1, _⟩ => show win0_3.index t (1 : Fin 2) * 64 + 1 * k.val = k.val; rw [e1]; omega

theorem blk4 (c : Dev nD) (t : Fin cfg0.N) (k : Fin 64) :
    iblk0 V c 4 t (ix2 (0 : Fin 1) k) = V c main_v31 (ix2 (0 : Fin 1) k) := by
  obtain ⟨-, -, -, -, -, -, -, -, e0, e1, -⟩ := idx_facts t
  show V c main_v31 (((cfg0.win 4).blk t).view.emb (ix2 (0 : Fin 1) k)) = V c main_v31 (ix2 (0 : Fin 1) k)
  refine congrArg (V c main_v31) (funext fun a => Fin.ext ?_)
  match a with
  | ⟨0, _⟩ => show win0_4.index t (0 : Fin 2) * 1 + 1 * 0 = 0; rw [e0]
  | ⟨1, _⟩ => show win0_4.index t (1 : Fin 2) * 64 + 1 * k.val = k.val; rw [e1]; omega

theorem blk5 (c : Dev nD) (t : Fin cfg0.N) (k : Fin 64) (j : Fin 32) :
    iblk0 V c 5 t (ix2 k j) = V c main_arg5 (ix2 k j) := by
  obtain ⟨-, -, -, -, -, -, -, -, -, -, e0, e1, -⟩ := idx_facts t
  show V c main_arg5 (((cfg0.win 5).blk t).view.emb (ix2 k j)) = V c main_arg5 (ix2 k j)
  refine congrArg (V c main_arg5) (funext fun a => Fin.ext ?_)
  match a with
  | ⟨0, _⟩ => show win0_5.index t (0 : Fin 2) * 64 + 1 * k.val = k.val; rw [e0]; omega
  | ⟨1, _⟩ => show win0_5.index t (1 : Fin 2) * 32 + 1 * j.val = j.val; rw [e1]; omega

/-- Where row `p`, column `j` of block `t` of the output sits in the array. -/
theorem out_emb (t : Fin cfg0.N) (p : Fin 2000) (j : Fin 32) :
    ((cfg0.win 6).blk t).view.emb (ix2 p j) = ix2 (rowAt t p) j := by
  obtain ⟨-, -, -, -, -, -, -, -, -, -, -, -, e0, e1⟩ := idx_facts t
  refine funext fun a => Fin.ext ?_
  match a with
  | ⟨0, _⟩ => show win0_6.index t (0 : Fin 2) * 2000 + 1 * p.val = t.val * 2000 + p.val; rw [e0]; omega
  | ⟨1, _⟩ => show win0_6.index t (1 : Fin 2) * 32 + 1 * j.val = j.val; rw [e1]; omega

/-- What point `t` writes back is block `t` of `rowsOut` of the arrays the launch finds. -/
theorem flushed_eq (c : Dev nD) (t : Fin cfg0.N) :
    (dat0 V c).flushed 6 t = ((cfg0.win 6).blk t).view.read (Elt Ideal)
      (rowsOut (V c main_v28) (V c main_v29) (V c main_v30) (V c main_arg3) (V c main_v31) (V c main_arg5)) := by
  show (cfg0.win 6).cut (grid0.coords t) ((dat0 V c).after 6 t) = _
  rw [after0_6]
  unfold out0_6
  rw [View.canon_unit_zero hz]
  simp only [View.ld_unit_zero (S := S2000x64) hz, View.ld_unit_zero (S := S2000x1) hz, View.ld_unit_zero (S := S64x64) hz,
    View.ld_unit_zero (S := S1x64) hz, View.ld_unit_zero (S := S64x32) hz]
  funext y
  obtain ⟨p, j, rfl⟩ : ∃ (p : Fin 2000) (j : Fin 32), y = ix2 p j := ⟨y 0, y 1, eq_ix2 y⟩
  show k0_pay1 (iblk0 V c 0 t) (iblk0 V c 1 t) (iblk0 V c 2 t) (iblk0 V c 3 t) (iblk0 V c 4 t) (iblk0 V c 5 t) (ix2 p j)
    = rowsOut (V c main_v28) (V c main_v29) (V c main_v30) (V c main_arg3) (V c main_v31) (V c main_arg5)
        (((cfg0.win 6).blk t).view.emb (ix2 p j))
  rw [out_emb]
  refine (pay_apply _ _ _ _ _ _ p j).trans ?_
  show _ = rowsOutAt (V c main_v28) (V c main_v29) (V c main_v30) (V c main_arg3) (V c main_v31) (V c main_arg5) (rowAt t p) j
  unfold rowsOutAt
  simp only [blk0 V c t p, blk1 V c t p, blk2 V c t p, blk3 V c t, blk4 V c t, blk5 V c t]

/-- The output's blocks tile its array: row `r` is in block `r / 2000`. -/
theorem cover (i : S100000x32.Idx) : ∃ t : Fin cfg0.N, (cfg0.win 6).flush t = true ∧ i ∈ ((cfg0.win 6).blk t).view.set := by
  have hi0 : (i 0).val < 100000 := (i 0).isLt
  have hi1 : (i 1).val < 32 := (i 1).isLt
  let t : Fin cfg0.N := ⟨(i 0).val / 2000, by show (i 0).val / 2000 < 50; omega⟩
  obtain ⟨-, -, -, -, -, -, -, -, -, -, -, -, e0, e1⟩ := idx_facts t
  refine ⟨t, flush0_6 t, ?_⟩
  show i ∈ ((View.whole main_v32).slice (win0_6.rect t)).set
  rw [View.set_slice_whole, Rect.mem_set_unit]
  intro a
  match a with
  | ⟨0, _⟩ =>
    show win0_6.index t (0 : Fin 2) * 2000 ≤ (i 0).val ∧ (i 0).val < win0_6.index t (0 : Fin 2) * 2000 + 2000
    rw [e0]; show (i 0).val / 2000 * 2000 ≤ (i 0).val ∧ (i 0).val < (i 0).val / 2000 * 2000 + 2000; omega
  | ⟨1, _⟩ =>
    show win0_6.index t (1 : Fin 2) * 32 ≤ (i 1).val ∧ (i 1).val < win0_6.index t (1 : Fin 2) * 32 + 32
    rw [e1]; omega

/-- After the launch the output array holds `rowsOut` of the arrays the launch found. -/
theorem final (c : Dev nD) : (dat0 V c).arrAt 6 cfg0.N
    = rowsOut (V c main_v28) (V c main_v29) (V c main_v30) (V c main_arg3) (V c main_v31) (V c main_arg5) :=
  (dat0 V c).arrAt_eq_of_cover 6 _ (fun t _ => flushed_eq V c t) cover

end Cert.KernelIdeal.Hidden

end
-- ==== Proof.ScaledRows.lean ====
/-
  The second grid launch, read as one function of the arrays it finds.

  It walks 50 blocks of 2000 rows and stores, at row `r` and column `j`, `A (r, j) · D (r, 0) + B (0, j)`: each row of the
  aggregated array rescaled by its own scale and shifted by the bias row. The blocks tile the output, so after the launch
  the output array holds this function everywhere.
-/
import proofs.«149882_j33784212750626_2_alg».proof.Proof.Gen.KernelIdeal.Frame
import Idealize.ShloMosaic.Lib.Pipeline.Value
import Idealize.ShloMosaic.Lib.ValueIdx
import proofs.«149882_j33784212750626_2_alg».proof.Proof.LibBiasRows
import proofs.«149882_j33784212750626_2_alg».proof.Proof.LibKeepdims

set_option maxRecDepth 16384

noncomputable section

namespace Cert.KernelIdeal.Scaled

open Cert.KernelIdeal Cert.KernelIdeal.Gen Idealize.ShloMosaic Idealize.ShloMosaic.ValueIdx Idealize.ShloMosaic.TcCoe Idealize.SL.Sem
open Idealize.ShloMosaic.Pipeline (Dat)

/-- The value stored at row `r`, column `j`. -/
def scaledAt (A : Vec Ideal S100000x32 .f32) (D : Vec Ideal S100000x1 .f32) (B : Vec Ideal S1x32 .f32)
    (r : Fin 100000) (j : Fin 32) : EReal :=
  A (ix2 r j) * D (ix2 r (0 : Fin 1)) + B (ix2 (0 : Fin 1) j)

/-- The output array as one function of the input arrays. -/
def scaled (A : Vec Ideal S100000x32 .f32) (D : Vec Ideal S100000x1 .f32) (B : Vec Ideal S1x32 .f32) :
    Vec Ideal S100000x32 .f32 :=
  fun i => scaledAt A D B (i 0) (i 1)

/-- The body's stored value at row `p` of a block, column `j`. -/
theorem pay_apply (x0 : Vec Ideal S2000x32 .f32) (x1 : Vec Ideal S2000x1 .f32) (x2 : Vec Ideal S1x32 .f32)
    (p : Fin 2000) (j : Fin 32) :
    k1_pay1 x0 x1 x2 (ix2 p j) = x0 (ix2 p j) * x1 (ix2 p (0 : Fin 1)) + x2 (ix2 (0 : Fin 1) j) := by
  unfold k1_pay1
  rw [addf_apply, mulf_apply, shapeCast_self, shapeCast_self, shapeCast_self, Cert.LibKeepdims.broadcastTo_a1_ab_apply,
    Cert.LibBiasRows.row_broadcast]
  rfl

variable (V : (c : Dev nD) → (b : Ref sig .tc) → Buf (Elt Ideal) ((c : Thread nD τ).loc b))

theorem hz : (![0, 0] : Fin 2 → Nat) = fun _ => 0 := funext fun a => by fin_cases a <;> rfl

/-- The printed block indices over the grid: the two row-blocked inputs and the output move with the point on the row
    axis; the bias row is one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The array row that row `p` of block `t` is. -/
def rowAt (t : Fin cfg1.N) (p : Fin 2000) : Fin 100000 :=
  ⟨t.val * 2000 + p.val, by have : t.val < 50 := t.isLt; have := p.isLt; omega⟩

theorem blk0 (c : Dev nD) (t : Fin cfg1.N) (p : Fin 2000) (j : Fin 32) :
    iblk1 V c 0 t (ix2 p j) = V c main_v42 (ix2 (rowAt t p) j) := by
  obtain ⟨e0, e1, -⟩ := idx_facts t
  show V c main_v42 (((cfg1.win 0).blk t).view.emb (ix2 p j)) = V c main_v42 (ix2 (rowAt t p) j)
  refine congrArg (V c main_v42) (funext fun a => Fin.ext ?_)
  match a with
  | ⟨0, _⟩ => show win1_0.index t (0 : Fin 2) * 2000 + 1 * p.val = t.val * 2000 + p.val; rw [e0]; omega
  | ⟨1, _⟩ => show win1_0.index t (1 : Fin 2) * 32 + 1 * j.val = j.val; rw [e1]; omega

theorem blk1 (c : Dev nD) (t : Fin cfg1.N) (p : Fin 2000) :
    iblk1 V c 1 t (ix2 p (0 : Fin 1)) = V c main_v43 (ix2 (rowAt t p) (0 : Fin 1)) := by
  obtain ⟨-, -, e0, e1, -⟩ := idx_facts t
  show V c main_v43 (((cfg1.win 1).blk t).view.emb (ix2 p (0 : Fin 1))) = V c main_v43 (ix2 (rowAt t p) (0 : Fin 1))
  refine congrArg (V c main_v43) (funext fun a => Fin.ext ?_)
  match a with
  | ⟨0, _⟩ => show win1_1.index t (0 : Fin 2) * 2000 + 1 * p.val = t.val * 2000 + p.val; rw [e0]; omega
  | ⟨1, _⟩ => show win1_1.index t (1 : Fin 2) * 1 + 1 * 0 = 0; rw [e1]

theorem blk2 (c : Dev nD) (t : Fin cfg1.N) (j : Fin 32) :
    iblk1 V c 2 t (ix2 (0 : Fin 1) j) = V c main_v44 (ix2 (0 : Fin 1) j) := by
  obtain ⟨-, -, -, -, e0, e1, -⟩ := idx_facts t
  show V c main_v44 (((cfg1.win 2).blk t).view.emb (ix2 (0 : Fin 1) j)) = V c main_v44 (ix2 (0 : Fin 1) j)
  refine congrArg (V c main_v44) (funext fun a => Fin.ext ?_)
  match a with
  | ⟨0, _⟩ => show win1_2.index t (0 : Fin 2) * 1 + 1 * 0 = 0; rw [e0]
  | ⟨1, _⟩ => show win1_2.index t (1 : Fin 2) * 32 + 1 * j.val = j.val; rw [e1]; omega

/-- Where row `p`, column `j` of block `t` of the output sits in the array. -/
theorem out_emb (t : Fin cfg1.N) (p : Fin 2000) (j : Fin 32) :
    ((cfg1.win 3).blk t).view.emb (ix2 p j) = ix2 (rowAt t p) j := by
  obtain ⟨-, -, -, -, -, -, e0, e1⟩ := idx_facts t
  refine funext fun a => Fin.ext ?_
  match a with
  | ⟨0, _⟩ => show win1_3.index t (0 : Fin 2) * 2000 + 1 * p.val = t.val * 2000 + p.val; rw [e0]; omega
  | ⟨1, _⟩ => show win1_3.index t (1 : Fin 2) * 32 + 1 * j.val = j.val; rw [e1]; omega

/-- What point `t` writes back is block `t` of `scaled` of the arrays the launch finds. -/
theorem flushed_eq (c : Dev nD) (t : Fin cfg1.N) :
    (dat1 V c).flushed 3 t = ((cfg1.win 3).blk t).view.read (Elt Ideal)
      (scaled (V c main_v42) (V c main_v43) (V c main_v44)) := by
  show (cfg1.win 3).cut (grid1.coords t) ((dat1 V c).after 3 t) = _
  rw [after1_3]
  unfold out1_3
  rw [View.canon_unit_zero hz]
  simp only [View.ld_unit_zero (S := S2000x32) hz, View.ld_unit_zero (S := S2000x1) hz, View.ld_unit_zero (S := S1x32) hz]
  funext y
  obtain ⟨p, j, rfl⟩ : ∃ (p : Fin 2000) (j : Fin 32), y = ix2 p j := ⟨y 0, y 1, eq_ix2 y⟩
  show k1_pay1 (iblk1 V c 0 t) (iblk1 V c 1 t) (iblk1 V c 2 t) (ix2 p j)
    = scaled (V c main_v42) (V c main_v43) (V c main_v44) (((cfg1.win 3).blk t).view.emb (ix2 p j))
  rw [out_emb]
  refine (pay_apply _ _ _ p j).trans ?_
  show _ = scaledAt (V c main_v42) (V c main_v43) (V c main_v44) (rowAt t p) j
  unfold scaledAt
  rw [blk0 V c t p j, blk1 V c t p, blk2 V c t j]

/-- The output's blocks tile its array: row `r` is in block `r / 2000`. -/
theorem cover (i : S100000x32.Idx) : ∃ t : Fin cfg1.N, (cfg1.win 3).flush t = true ∧ i ∈ ((cfg1.win 3).blk t).view.set := by
  have hi0 : (i 0).val < 100000 := (i 0).isLt
  have hi1 : (i 1).val < 32 := (i 1).isLt
  let t : Fin cfg1.N := ⟨(i 0).val / 2000, by show (i 0).val / 2000 < 50; omega⟩
  obtain ⟨-, -, -, -, -, -, e0, e1⟩ := idx_facts t
  refine ⟨t, flush1_3 t, ?_⟩
  show i ∈ ((View.whole main_v45).slice (win1_3.rect t)).set
  rw [View.set_slice_whole, Rect.mem_set_unit]
  intro a
  match a with
  | ⟨0, _⟩ =>
    show win1_3.index t (0 : Fin 2) * 2000 ≤ (i 0).val ∧ (i 0).val < win1_3.index t (0 : Fin 2) * 2000 + 2000
    rw [e0]; show (i 0).val / 2000 * 2000 ≤ (i 0).val ∧ (i 0).val < (i 0).val / 2000 * 2000 + 2000; omega
  | ⟨1, _⟩ =>
    show win1_3.index t (1 : Fin 2) * 32 ≤ (i 1).val ∧ (i 1).val < win1_3.index t (1 : Fin 2) * 32 + 32
    rw [e1]; omega

/-- After the launch the output array holds `scaled` of the arrays the launch found. -/
theorem final (c : Dev nD) : (dat1 V c).arrAt 3 cfg1.N = scaled (V c main_v42) (V c main_v43) (V c main_v44) :=
  (dat1 V c).arrAt_eq_of_cover 3 _ (fun t _ => flushed_eq V c t) cover

end Cert.KernelIdeal.Scaled

end
-- ==== Proof.KernelHost.lean ====
/-
  The host operations before the first grid launch, in the idealized kernel, compute the same arrays as the reference's.

  The kernel's @main and the reference's begin with the same operations: the self-loop edges appended to the two edge
  columns, the two degree counts (a scatter-add of ones), the scales `max(deg, 1) ^ (−1/2)`, the features rescaled on the
  source side, gathered along the edges and scatter-added into their destination rows. Stretch by stretch, the contents
  the kernel's run holds are the stages the reference's run is read through, so that the two programs are compared on
  literally the same arrays; only the way a scale vector is turned into a column (a reshape here, a broadcast there)
  differs, and is read at an index.
-/
import proofs.«149882_j33784212750626_2_alg».proof.Proof.Gen.KernelIdeal.Frame
import proofs.«149882_j33784212750626_2_alg».proof.Proof.Gen.ReferenceIdeal.Read
import Idealize.ShloMosaic.Lib.StableHlo.Run
import Idealize.ShloMosaic.Lib.ValueIdx
import proofs.«149882_j33784212750626_2_alg».proof.Proof.LibKeepdims
import proofs.«149882_j33784212750626_2_alg».proof.Proof.LibBiasRows

set_option maxRecDepth 16384

noncomputable section

namespace Cert.KernelIdeal.Host

open Cert.KernelIdeal Cert.KernelIdeal.Gen Idealize.ShloMosaic Idealize.ShloMosaic.ValueIdx Idealize.ShloMosaic.TcCoe Idealize.SL.Sem
open Idealize.ShloMosaic.StableHlo
open Cert.ReferenceIdeal.Read (val_main_v1 val_main_v2 val_main_v6 val_main_v9 val_main_v10 val_main_v12 val_main_v13 val_main_v15
  val_main_v18 val_main_v24 val_main_v25 val_main_v26 val_main_v27 val_main_v28)

/-! ## The two programs' dimension records are the same records -/

theorem scE_congr {x x' : FVec Ideal S100000 .f32} {i i' : IVec S1700000x1 32} {u u' : FVec Ideal S1700000 .f32}
    (hx : x = x') (hi : i = i') (hu : u = u') :
    Host.scatterAdd (F := Ideal) (φ := .f32) scatter_S100000_S1700000x1_S1700000_n_0_0_1 x i u
      = Host.scatterAdd (F := Ideal) (φ := .f32) Cert.ReferenceIdeal.scatter_S100000_S1700000x1_S1700000_n_0_0_1 x' i' u' := by
  subst hx hi hu; rfl

theorem sc64_congr {x x' : FVec Ideal S100000x64 .f32} {i i' : IVec S1700000x1 32} {u u' : FVec Ideal S1700000x64 .f32}
    (hx : x = x') (hi : i = i') (hu : u = u') :
    Host.scatterAdd (F := Ideal) (φ := .f32) scatter_S100000x64_S1700000x1_S1700000x64_1_0_0_1 x i u
      = Host.scatterAdd (F := Ideal) (φ := .f32) Cert.ReferenceIdeal.scatter_S100000x64_S1700000x1_S1700000x64_1_0_0_1 x' i' u' := by
  subst hx hi hu; rfl

theorem g64_congr {x x' : FVec Ideal S100000x64 .f32} {i i' : IVec S1700000x1 32} (hx : x = x') (hi : i = i') :
    Host.gather gather_S100000x64_S1700000x1_S1700000x64_1_0_n_n_0_1_164 x i
      = Host.gather Cert.ReferenceIdeal.gather_S100000x64_S1700000x1_S1700000x64_1_0_n_n_0_1_164 x' i' := by
  subst hx hi; rfl

/-- A buffer none of a stretch's operations writes keeps its contents. -/
macro "keep_ref" : tactic => `(tactic| (
  refine StableHlo.after_of_forall_not_mem _ _ (List.forall_iff_forall_mem.mp ?_)
  simp only [hostOps0, hostOps0_1, hostOps0_2, hostOps0_3, hostOps0_4, hostOps1, List.Forall, StableHlo.nullary_writes,
    StableHlo.unary_writes, StableHlo.binary_writes, StableHlo.ternary_writes, StableHlo.reshape_writes, Finset.mem_singleton]
  repeat' apply And.intro
  all_goals exact StableHlo.devRef_ne_of_ne (by decide)))

/-! ## Each stretch from arbitrary contents `U` -/

section Stretches
variable (U : Valuation τ sig (Elt Ideal))

theorem s0_v1 : after (hostOps0 (F := Ideal)) U (Proc.devRef .tc main_v1)
    = val_main_v1 (F := Ideal) (U (Proc.devRef .tc main_arg1)) := by
  dsimp only [hostOps0]; after_results; try rfl

theorem s0_v2 : after (hostOps0 (F := Ideal)) U (Proc.devRef .tc main_v2)
    = val_main_v2 (F := Ideal) (U (Proc.devRef .tc main_arg2)) := by
  dsimp only [hostOps0]; after_results; try rfl

theorem s0_v6 : after (hostOps0 (F := Ideal)) U (Proc.devRef .tc main_v6)
    = val_main_v6 (F := Ideal) (U (Proc.devRef .tc main_arg1)) := by
  dsimp only [hostOps0]; after_results
  unfold Cert.ReferenceIdeal.Read.val_main_v6
  exact scE_congr rfl rfl rfl

theorem s0_v9 : after (hostOps0 (F := Ideal)) U (Proc.devRef .tc main_v9)
    = val_main_v9 (F := Ideal) (U (Proc.devRef .tc main_arg2)) := by
  dsimp only [hostOps0]; after_results
  unfold Cert.ReferenceIdeal.Read.val_main_v9
  exact scE_congr rfl rfl rfl

theorem s0_cst2 : after (hostOps0 (F := Ideal)) U (Proc.devRef .tc main_cst_2) = constant (F := Ideal) S_ .f32 0x3F800000#32 := by
  dsimp only [hostOps0]; after_results; try rfl

theorem s1_v10 : after (hostOps0_1 (F := Ideal)) U (Proc.devRef .tc main_v10)
    = maximumf (F := Ideal) (φ := .f32) (broadcastInDim S100000 ![] bcast_S_S100000 (U (Proc.devRef .tc main_cst_2)))
        (U (Proc.devRef .tc main_v6)) := by
  dsimp only [hostOps0_1]; after_results; try rfl

theorem s2_v12 : after (hostOps0_2 (F := Ideal)) U (Proc.devRef .tc main_v12)
    = Host.powf (F := Ideal) (φ := .f32) (U (Proc.devRef .tc main_v10))
        (broadcastInDim S100000 ![] bcast_S_S100000 (constant S_ .f32 0xBF000000#32)) := by
  dsimp only [hostOps0_2]; after_results; try rfl

theorem s2_cst4 : after (hostOps0_2 (F := Ideal)) U (Proc.devRef .tc main_cst_4) = constant (F := Ideal) S_ .f32 0x3F800000#32 := by
  dsimp only [hostOps0_2]; after_results; try rfl

theorem s3_v13 : after (hostOps0_3 (F := Ideal)) U (Proc.devRef .tc main_v13)
    = maximumf (F := Ideal) (φ := .f32) (broadcastInDim S100000 ![] bcast_S_S100000 (U (Proc.devRef .tc main_cst_4)))
        (U (Proc.devRef .tc main_v9)) := by
  dsimp only [hostOps0_3]; after_results; try rfl

theorem s4_v15 : after (hostOps0_4 (F := Ideal)) U (Proc.devRef .tc main_v15)
    = Host.powf (F := Ideal) (φ := .f32) (U (Proc.devRef .tc main_v13))
        (broadcastInDim S100000 ![] bcast_S_S100000 (constant S_ .f32 0xBF000000#32)) := by
  dsimp only [hostOps0_4]; after_results; try rfl

set_option maxHeartbeats 4000000 in
theorem s4_v28 : after (hostOps0_4 (F := Ideal)) U (Proc.devRef .tc main_v28)
    = Host.scatterAdd (F := Ideal) (φ := .f32) scatter_S100000x64_S1700000x1_S1700000x64_1_0_0_1
        (broadcastInDim S100000x64 ![] bcast_S_S100000x64 (constant S_ .f32 0x00000000#32))
        (broadcastInDim S1700000x1 ![0] bcast_S1700000_S1700000x1_0 (U (Proc.devRef .tc main_v2)))
        (Host.gather gather_S100000x64_S1700000x1_S1700000x64_1_0_n_n_0_1_164
          (mulf (U (Proc.devRef .tc main_arg0))
            (broadcastInDim S100000x64 ![0, 1] bcast_S100000x1_S100000x64_0_1
              (broadcastInDim S100000x1 ![0] bcast_S100000_S100000x1_0 (U (Proc.devRef .tc main_v12)))))
          (broadcastInDim S1700000x1 ![0] bcast_S1700000_S1700000x1_0
            (select (cmpi .slt (U (Proc.devRef .tc main_v1)) (broadcastInDim S1700000 ![] bcast_S_S1700000 (constantI S_ 32 0#32)))
              (addi (U (Proc.devRef .tc main_v1)) (broadcastInDim S1700000 ![] bcast_S_S1700000 (constantI S_ 32 100000#32)))
              (U (Proc.devRef .tc main_v1))))) := by
  dsimp only [hostOps0_4]; after_results; try rfl

/-- The destination scale as a column, at row `r`. -/
theorem s4_v29 (r : Fin 100000) : after (hostOps0_4 (F := Ideal)) U (Proc.devRef .tc main_v29) (ix2 r (0 : Fin 1))
    = Host.powf (F := Ideal) (φ := .f32) (U (Proc.devRef .tc main_v13))
        (broadcastInDim S100000 ![] bcast_S_S100000 (constant S_ .f32 0xBF000000#32)) (ix1 r) := by
  dsimp only [hostOps0_4]; after_results
  exact Cert.LibKeepdims.shapeCast_a_a1_apply _ _ r 0

/-- The source scale as a column, at row `r`. -/
theorem s4_v30 (r : Fin 100000) : after (hostOps0_4 (F := Ideal)) U (Proc.devRef .tc main_v30) (ix2 r (0 : Fin 1))
    = U (Proc.devRef .tc main_v12) (ix1 r) := by
  dsimp only [hostOps0_4]; after_results
  exact Cert.LibKeepdims.shapeCast_a_a1_apply _ _ r 0

/-- The first bias as a row, at column `k`. -/
theorem s4_v31 (k : Fin 64) : after (hostOps0_4 (F := Ideal)) U (Proc.devRef .tc main_v31) (ix2 (0 : Fin 1) k)
    = U (Proc.devRef .tc main_arg4) (ix1 k) := by
  dsimp only [hostOps0_4]; after_results
  exact Cert.LibBiasRows.row_of_vector _ _ k

end Stretches

/-! ## The contents at each boundary before the first launch -/

section Levels
variable (m : (ℓ : Loc nD τ sig) → Buf (Elt Ideal) ℓ) (ρ : Dev nD → PrngReg) (c : Dev nD)

theorem L1_v1 : W1 m ρ c (Proc.devRef .tc main_v1) = val_main_v1 (F := Ideal) (m ((c : Thread nD τ).loc main_arg1)) := s0_v1 (W0 m ρ c)
theorem L1_v2 : W1 m ρ c (Proc.devRef .tc main_v2) = val_main_v2 (F := Ideal) (m ((c : Thread nD τ).loc main_arg2)) := s0_v2 (W0 m ρ c)
theorem L1_v6 : W1 m ρ c (Proc.devRef .tc main_v6) = val_main_v6 (F := Ideal) (m ((c : Thread nD τ).loc main_arg1)) := s0_v6 (W0 m ρ c)
theorem L1_v9 : W1 m ρ c (Proc.devRef .tc main_v9) = val_main_v9 (F := Ideal) (m ((c : Thread nD τ).loc main_arg2)) := s0_v9 (W0 m ρ c)
theorem L1_cst_2 : W1 m ρ c (Proc.devRef .tc main_cst_2) = constant (F := Ideal) S_ .f32 0x3F800000#32 := s0_cst2 (W0 m ρ c)
theorem L1_arg0 : W1 m ρ c (Proc.devRef .tc main_arg0) = (m ((c : Thread nD τ).loc main_arg0)) :=
  (show after (hostOps0 (F := Ideal)) (W0 m ρ c) (Proc.devRef .tc main_arg0) = W0 m ρ c (Proc.devRef .tc main_arg0) by keep_ref).trans rfl
theorem L1_arg3 : W1 m ρ c (Proc.devRef .tc main_arg3) = (m ((c : Thread nD τ).loc main_arg3)) :=
  (show after (hostOps0 (F := Ideal)) (W0 m ρ c) (Proc.devRef .tc main_arg3) = W0 m ρ c (Proc.devRef .tc main_arg3) by keep_ref).trans rfl
theorem L1_arg4 : W1 m ρ c (Proc.devRef .tc main_arg4) = (m ((c : Thread nD τ).loc main_arg4)) :=
  (show after (hostOps0 (F := Ideal)) (W0 m ρ c) (Proc.devRef .tc main_arg4) = W0 m ρ c (Proc.devRef .tc main_arg4) by keep_ref).trans rfl
theorem L1_arg5 : W1 m ρ c (Proc.devRef .tc main_arg5) = (m ((c : Thread nD τ).loc main_arg5)) :=
  (show after (hostOps0 (F := Ideal)) (W0 m ρ c) (Proc.devRef .tc main_arg5) = W0 m ρ c (Proc.devRef .tc main_arg5) by keep_ref).trans rfl
theorem L1_arg6 : W1 m ρ c (Proc.devRef .tc main_arg6) = (m ((c : Thread nD τ).loc main_arg6)) :=
  (show after (hostOps0 (F := Ideal)) (W0 m ρ c) (Proc.devRef .tc main_arg6) = W0 m ρ c (Proc.devRef .tc main_arg6) by keep_ref).trans rfl

theorem L2_v10 : W2 m ρ c (Proc.devRef .tc main_v10) = val_main_v10 (F := Ideal) (m ((c : Thread nD τ).loc main_arg1)) := by
  refine (s1_v10 (W1 m ρ c)).trans ?_
  rw [L1_cst_2, L1_v6]
  rfl
theorem L2_v1 : W2 m ρ c (Proc.devRef .tc main_v1) = val_main_v1 (F := Ideal) (m ((c : Thread nD τ).loc main_arg1)) :=
  (show after (hostOps0_1 (F := Ideal)) (W1 m ρ c) (Proc.devRef .tc main_v1) = W1 m ρ c (Proc.devRef .tc main_v1) by keep_ref).trans (L1_v1 m ρ c)
theorem L2_v2 : W2 m ρ c (Proc.devRef .tc main_v2) = val_main_v2 (F := Ideal) (m ((c : Thread nD τ).loc main_arg2)) :=
  (show after (hostOps0_1 (F := Ideal)) (W1 m ρ c) (Proc.devRef .tc main_v2) = W1 m ρ c (Proc.devRef .tc main_v2) by keep_ref).trans (L1_v2 m ρ c)
theorem L2_v9 : W2 m ρ c (Proc.devRef .tc main_v9) = val_main_v9 (F := Ideal) (m ((c : Thread nD τ).loc main_arg2)) :=
  (show after (hostOps0_1 (F := Ideal)) (W1 m ρ c) (Proc.devRef .tc main_v9) = W1 m ρ c (Proc.devRef .tc main_v9) by keep_ref).trans (L1_v9 m ρ c)
theorem L2_arg0 : W2 m ρ c (Proc.devRef .tc main_arg0) = (m ((c : Thread nD τ).loc main_arg0)) :=
  (show after (hostOps0_1 (F := Ideal)) (W1 m ρ c) (Proc.devRef .tc main_arg0) = W1 m ρ c (Proc.devRef .tc main_arg0) by keep_ref).trans (L1_arg0 m ρ c)
theorem L2_arg3 : W2 m ρ c (Proc.devRef .tc main_arg3) = (m ((c : Thread nD τ).loc main_arg3)) :=
  (show after (hostOps0_1 (F := Ideal)) (W1 m ρ c) (Proc.devRef .tc main_arg3) = W1 m ρ c (Proc.devRef .tc main_arg3) by keep_ref).trans (L1_arg3 m ρ c)
theorem L2_arg4 : W2 m ρ c (Proc.devRef .tc main_arg4) = (m ((c : Thread nD τ).loc main_arg4)) :=
  (show after (hostOps0_1 (F := Ideal)) (W1 m ρ c) (Proc.devRef .tc main_arg4) = W1 m ρ c (Proc.devRef .tc main_arg4) by keep_ref).trans (L1_arg4 m ρ c)
theorem L2_arg5 : W2 m ρ c (Proc.devRef .tc main_arg5) = (m ((c : Thread nD τ).loc main_arg5)) :=
  (show after (hostOps0_1 (F := Ideal)) (W1 m ρ c) (Proc.devRef .tc main_arg5) = W1 m ρ c (Proc.devRef .tc main_arg5) by keep_ref).trans (L1_arg5 m ρ c)
theorem L2_arg6 : W2 m ρ c (Proc.devRef .tc main_arg6) = (m ((c : Thread nD τ).loc main_arg6)) :=
  (show after (hostOps0_1 (F := Ideal)) (W1 m ρ c) (Proc.devRef .tc main_arg6) = W1 m ρ c (Proc.devRef .tc main_arg6) by keep_ref).trans (L1_arg6 m ρ c)

theorem L3_v12 : W3 m ρ c (Proc.devRef .tc main_v12) = val_main_v12 (F := Ideal) (m ((c : Thread nD τ).loc main_arg1)) := by
  refine (s2_v12 (W2 m ρ c)).trans ?_
  rw [L2_v10]
  rfl
theorem L3_cst_4 : W3 m ρ c (Proc.devRef .tc main_cst_4) = constant (F := Ideal) S_ .f32 0x3F800000#32 := s2_cst4 (W2 m ρ c)
theorem L3_v1 : W3 m ρ c (Proc.devRef .tc main_v1) = val_main_v1 (F := Ideal) (m ((c : Thread nD τ).loc main_arg1)) :=
  (show after (hostOps0_2 (F := Ideal)) (W2 m ρ c) (Proc.devRef .tc main_v1) = W2 m ρ c (Proc.devRef .tc main_v1) by keep_ref).trans (L2_v1 m ρ c)
theorem L3_v2 : W3 m ρ c (Proc.devRef .tc main_v2) = val_main_v2 (F := Ideal) (m ((c : Thread nD τ).loc main_arg2)) :=
  (show after (hostOps0_2 (F := Ideal)) (W2 m ρ c) (Proc.devRef .tc main_v2) = W2 m ρ c (Proc.devRef .tc main_v2) by keep_ref).trans (L2_v2 m ρ c)
theorem L3_v9 : W3 m ρ c (Proc.devRef .tc main_v9) = val_main_v9 (F := Ideal) (m ((c : Thread nD τ).loc main_arg2)) :=
  (show after (hostOps0_2 (F := Ideal)) (W2 m ρ c) (Proc.devRef .tc main_v9) = W2 m ρ c (Proc.devRef .tc main_v9) by keep_ref).trans (L2_v9 m ρ c)
theorem L3_arg0 : W3 m ρ c (Proc.devRef .tc main_arg0) = (m ((c : Thread nD τ).loc main_arg0)) :=
  (show after (hostOps0_2 (F := Ideal)) (W2 m ρ c) (Proc.devRef .tc main_arg0) = W2 m ρ c (Proc.devRef .tc main_arg0) by keep_ref).trans (L2_arg0 m ρ c)
theorem L3_arg3 : W3 m ρ c (Proc.devRef .tc main_arg3) = (m ((c : Thread nD τ).loc main_arg3)) :=
  (show after (hostOps0_2 (F := Ideal)) (W2 m ρ c) (Proc.devRef .tc main_arg3) = W2 m ρ c (Proc.devRef .tc main_arg3) by keep_ref).trans (L2_arg3 m ρ c)
theorem L3_arg4 : W3 m ρ c (Proc.devRef .tc main_arg4) = (m ((c : Thread nD τ).loc main_arg4)) :=
  (show after (hostOps0_2 (F := Ideal)) (W2 m ρ c) (Proc.devRef .tc main_arg4) = W2 m ρ c (Proc.devRef .tc main_arg4) by keep_ref).trans (L2_arg4 m ρ c)
theorem L3_arg5 : W3 m ρ c (Proc.devRef .tc main_arg5) = (m ((c : Thread nD τ).loc main_arg5)) :=
  (show after (hostOps0_2 (F := Ideal)) (W2 m ρ c) (Proc.devRef .tc main_arg5) = W2 m ρ c (Proc.devRef .tc main_arg5) by keep_ref).trans (L2_arg5 m ρ c)
theorem L3_arg6 : W3 m ρ c (Proc.devRef .tc main_arg6) = (m ((c : Thread nD τ).loc main_arg6)) :=
  (show after (hostOps0_2 (F := Ideal)) (W2 m ρ c) (Proc.devRef .tc main_arg6) = W2 m ρ c (Proc.devRef .tc main_arg6) by keep_ref).trans (L2_arg6 m ρ c)

theorem L4_v13 : W4 m ρ c (Proc.devRef .tc main_v13) = val_main_v13 (F := Ideal) (m ((c : Thread nD τ).loc main_arg2)) := by
  refine (s3_v13 (W3 m ρ c)).trans ?_
  rw [L3_cst_4, L3_v9]
  rfl
theorem L4_v1 : W4 m ρ c (Proc.devRef .tc main_v1) = val_main_v1 (F := Ideal) (m ((c : Thread nD τ).loc main_arg1)) :=
  (show after (hostOps0_3 (F := Ideal)) (W3 m ρ c) (Proc.devRef .tc main_v1) = W3 m ρ c (Proc.devRef .tc main_v1) by keep_ref).trans (L3_v1 m ρ c)
theorem L4_v2 : W4 m ρ c (Proc.devRef .tc main_v2) = val_main_v2 (F := Ideal) (m ((c : Thread nD τ).loc main_arg2)) :=
  (show after (hostOps0_3 (F := Ideal)) (W3 m ρ c) (Proc.devRef .tc main_v2) = W3 m ρ c (Proc.devRef .tc main_v2) by keep_ref).trans (L3_v2 m ρ c)
theorem L4_v12 : W4 m ρ c (Proc.devRef .tc main_v12) = val_main_v12 (F := Ideal) (m ((c : Thread nD τ).loc main_arg1)) :=
  (show after (hostOps0_3 (F := Ideal)) (W3 m ρ c) (Proc.devRef .tc main_v12) = W3 m ρ c (Proc.devRef .tc main_v12) by keep_ref).trans (L3_v12 m ρ c)
theorem L4_arg0 : W4 m ρ c (Proc.devRef .tc main_arg0) = (m ((c : Thread nD τ).loc main_arg0)) :=
  (show after (hostOps0_3 (F := Ideal)) (W3 m ρ c) (Proc.devRef .tc main_arg0) = W3 m ρ c (Proc.devRef .tc main_arg0) by keep_ref).trans (L3_arg0 m ρ c)
theorem L4_arg3 : W4 m ρ c (Proc.devRef .tc main_arg3) = (m ((c : Thread nD τ).loc main_arg3)) :=
  (show after (hostOps0_3 (F := Ideal)) (W3 m ρ c) (Proc.devRef .tc main_arg3) = W3 m ρ c (Proc.devRef .tc main_arg3) by keep_ref).trans (L3_arg3 m ρ c)
theorem L4_arg4 : W4 m ρ c (Proc.devRef .tc main_arg4) = (m ((c : Thread nD τ).loc main_arg4)) :=
  (show after (hostOps0_3 (F := Ideal)) (W3 m ρ c) (Proc.devRef .tc main_arg4) = W3 m ρ c (Proc.devRef .tc main_arg4) by keep_ref).trans (L3_arg4 m ρ c)
theorem L4_arg5 : W4 m ρ c (Proc.devRef .tc main_arg5) = (m ((c : Thread nD τ).loc main_arg5)) :=
  (show after (hostOps0_3 (F := Ideal)) (W3 m ρ c) (Proc.devRef .tc main_arg5) = W3 m ρ c (Proc.devRef .tc main_arg5) by keep_ref).trans (L3_arg5 m ρ c)
theorem L4_arg6 : W4 m ρ c (Proc.devRef .tc main_arg6) = (m ((c : Thread nD τ).loc main_arg6)) :=
  (show after (hostOps0_3 (F := Ideal)) (W3 m ρ c) (Proc.devRef .tc main_arg6) = W3 m ρ c (Proc.devRef .tc main_arg6) by keep_ref).trans (L3_arg6 m ρ c)

theorem L5_v15 : W5 m ρ c (Proc.devRef .tc main_v15) = val_main_v15 (F := Ideal) (m ((c : Thread nD τ).loc main_arg2)) := by
  refine (s4_v15 (W4 m ρ c)).trans ?_
  rw [L4_v13]
  rfl

theorem L5_v28 : W5 m ρ c (Proc.devRef .tc main_v28) = val_main_v28 (F := Ideal) (m ((c : Thread nD τ).loc main_arg0)) (m ((c : Thread nD τ).loc main_arg1)) (m ((c : Thread nD τ).loc main_arg2)) := by
  refine (s4_v28 (W4 m ρ c)).trans ?_
  rw [L4_v2, L4_arg0, L4_v12, L4_v1]
  unfold Cert.ReferenceIdeal.Read.val_main_v28
  refine sc64_congr rfl rfl ?_
  unfold Cert.ReferenceIdeal.Read.val_main_v25
  exact g64_congr rfl rfl

theorem L5_v29 (r : Fin 100000) : W5 m ρ c (Proc.devRef .tc main_v29) (ix2 r (0 : Fin 1)) = (val_main_v15 (F := Ideal) (m ((c : Thread nD τ).loc main_arg2))) (ix1 r) := by
  refine (s4_v29 (W4 m ρ c) r).trans ?_
  rw [L4_v13]
  rfl

theorem L5_v30 (r : Fin 100000) : W5 m ρ c (Proc.devRef .tc main_v30) (ix2 r (0 : Fin 1)) = (val_main_v12 (F := Ideal) (m ((c : Thread nD τ).loc main_arg1))) (ix1 r) := by
  refine (s4_v30 (W4 m ρ c) r).trans ?_
  rw [L4_v12]

theorem L5_v31 (k : Fin 64) : W5 m ρ c (Proc.devRef .tc main_v31) (ix2 (0 : Fin 1) k) = (m ((c : Thread nD τ).loc main_arg4)) (ix1 k) := by
  refine (s4_v31 (W4 m ρ c) k).trans ?_
  rw [L4_arg4]
theorem L5_v1 : W5 m ρ c (Proc.devRef .tc main_v1) = val_main_v1 (F := Ideal) (m ((c : Thread nD τ).loc main_arg1)) :=
  (show after (hostOps0_4 (F := Ideal)) (W4 m ρ c) (Proc.devRef .tc main_v1) = W4 m ρ c (Proc.devRef .tc main_v1) by keep_ref).trans (L4_v1 m ρ c)
theorem L5_v2 : W5 m ρ c (Proc.devRef .tc main_v2) = val_main_v2 (F := Ideal) (m ((c : Thread nD τ).loc main_arg2)) :=
  (show after (hostOps0_4 (F := Ideal)) (W4 m ρ c) (Proc.devRef .tc main_v2) = W4 m ρ c (Proc.devRef .tc main_v2) by keep_ref).trans (L4_v2 m ρ c)
theorem L5_arg3 : W5 m ρ c (Proc.devRef .tc main_arg3) = (m ((c : Thread nD τ).loc main_arg3)) :=
  (show after (hostOps0_4 (F := Ideal)) (W4 m ρ c) (Proc.devRef .tc main_arg3) = W4 m ρ c (Proc.devRef .tc main_arg3) by keep_ref).trans (L4_arg3 m ρ c)
theorem L5_arg5 : W5 m ρ c (Proc.devRef .tc main_arg5) = (m ((c : Thread nD τ).loc main_arg5)) :=
  (show after (hostOps0_4 (F := Ideal)) (W4 m ρ c) (Proc.devRef .tc main_arg5) = W4 m ρ c (Proc.devRef .tc main_arg5) by keep_ref).trans (L4_arg5 m ρ c)
theorem L5_arg6 : W5 m ρ c (Proc.devRef .tc main_arg6) = (m ((c : Thread nD τ).loc main_arg6)) :=
  (show after (hostOps0_4 (F := Ideal)) (W4 m ρ c) (Proc.devRef .tc main_arg6) = W4 m ρ c (Proc.devRef .tc main_arg6) by keep_ref).trans (L4_arg6 m ρ c)

end Levels

end Cert.KernelIdeal.Host

end
-- ==== Proof.LibRows.lean ====
/-
  Rows of a table gathered at, and accumulated into, integer row numbers.

  `x[idx]` of a table `x : [N, C]` (or `[N]`) at row numbers `idx : [E, 1]` reads, for edge `e`, the row whose number is
  `idx[e, 0]` read as a signed integer and clamped into `[0, N − 1]` (`rowOf`). A `segment_sum` of messages `upd : [E, C]`
  (or `[E]`) at row numbers `idx` adds, into row `d`, the messages of exactly those edges `e` whose number `idx[e, 0]`, read
  signed and NOT clamped, is `d` (`edgesInto`): an edge whose number is outside `[0, N)` is dropped. The three sums of
  one program — onto `[N]`, onto `[N, C]` for each width — run over the SAME set of edges, and for an edge of that set the
  clamped row is `d` itself.
-/
import Idealize.ShloMosaic.PureOps.Ideal
import Idealize.ShloMosaic.Lib.ValueIdx

noncomputable section

namespace Cert.Lib.Rows

open Idealize.ShloMosaic Idealize.ShloMosaic.ValueIdx

/-- The row a gather's start index selects: the word read signed, clamped into `[0, N − 1]`. -/
def rowOf (N : Nat) (hN : 0 < N) {w : Nat} (v : BitVec w) : Fin N := ⟨min v.toInt.toNat (N - 1), by omega⟩

/-- The edges a scatter sends to row `d`: those whose row number, read signed, is `d`. -/
def edgesInto {N E w : Nat} (idx : IVec ⟨2, ![E, 1]⟩ w) (d : Fin N) : Finset (Fin E) :=
  Finset.univ.filter fun e => (idx (ix2 e (0 : Fin 1))).toInt = (d.val : Int)

theorem mem_edgesInto {N E w : Nat} (idx : IVec ⟨2, ![E, 1]⟩ w) (d : Fin N) (e : Fin E) :
    e ∈ edgesInto idx d ↔ (idx (ix2 e (0 : Fin 1))).toInt = (d.val : Int) := by
  simp [edgesInto]

/-- For an edge sent to row `d`, the clamped row of the same number is `d`. -/
theorem rowOf_of_toInt {N : Nat} (hN : 0 < N) {w : Nat} (v : BitVec w) (d : Fin N) (h : v.toInt = (d.val : Int)) :
    rowOf N hN v = d := by
  apply Fin.ext
  show min v.toInt.toNat (N - 1) = d.val
  rw [h, Int.toNat_natCast]
  have := d.isLt
  omega

/-! ## Gathers -/

/-- The dimension numbers of `x[idx]` for a table `[N, C]` at row numbers `[E, 1]`. -/
abbrev gatherRowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- A gathered row, read at edge `e` and column `k`: the table at the clamped row of `idx[e, 0]`, column `k`. -/
theorem gatherRows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (gatherRowsDims N E C wf) x idx (ix2 e k) = x (ix2 (rowOf N hN (idx (ix2 e (0 : Fin 1)))) k) := by
  unfold Host.gather
  congr 1
  funext a
  refine Fin.ext ?_
  match a with
  | ⟨0, _⟩ =>
    show (gatherRowsDims N E C wf).start (ix2 e k) idx 0 + (gatherRowsDims N E C wf).batchCoord (ix2 e k) 0
      + (gatherRowsDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRowsDims N E C wf).startIndexMap from List.mem_singleton.mpr rfl)]
    have hsi : (gatherRowsDims N E C wf).siIdx (ix2 e k) ⟨List.idxOf (0 : Fin 2) (gatherRowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gatherRowsDims N E C wf).start (ix2 e k) idx 1 + (gatherRowsDims N E C wf).batchCoord (ix2 e k) 1
      + (gatherRowsDims N E C wf).offCoord (ix2 e k) 1 = k.val
    rw [GatherDims.batchCoord_eq_zero _ _ _ List.not_mem_nil]
    have hs : (gatherRowsDims N E C wf).start (ix2 e k) idx 1 = 0 := by
      unfold GatherDims.start
      rw [dif_neg (show (1 : Fin 2) ∉ ([0] : List (Fin 2)) by decide)]
    rw [hs]
    have ho : (gatherRowsDims N E C wf).offCoord (ix2 e k) 1 = k.val := by
      unfold GatherDims.offCoord
      rw [dif_pos ((GatherDims.mem_sKept _ _).mpr ⟨(show (1 : Fin 2) ∉ ([0] : List (Fin 2)) by decide), List.not_mem_nil⟩)]
      rfl
    rw [ho]
    omega

/-- The dimension numbers of `x[idx]` for a flat table `[N]` at row numbers `[E, 1]`. -/
abbrev gatherEltsDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- A gathered element, read at edge `e`: the table at the clamped row of `idx[e, 0]`. -/
theorem gatherElts_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gatherEltsDims N E wf) x idx (ix1 e) = x (ix1 (rowOf N hN (idx (ix2 e (0 : Fin 1))))) := by
  unfold Host.gather
  congr 1
  funext a
  obtain rfl : a = 0 := Subsingleton.elim _ _
  refine Fin.ext ?_
  show (gatherEltsDims N E wf).start (ix1 e) idx 0 + (gatherEltsDims N E wf).batchCoord (ix1 e) 0
    + (gatherEltsDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherEltsDims N E wf).startIndexMap from List.mem_singleton.mpr rfl)]
  have hsi : (gatherEltsDims N E wf).siIdx (ix1 e) ⟨List.idxOf (0 : Fin 1) (gatherEltsDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Accumulating scatters -/

/-- An axis is kept exactly when it is not listed. -/
theorem mem_kept {s : Shape} (axes : List (Fin s.rank)) (a : Fin s.rank) : a ∈ s.kept axes ↔ a ∉ axes := by
  simp [Shape.kept, List.mem_filter, List.mem_finRange]

/-- The dimension numbers of a `segment_sum` of rows `[E, C]` into `[N, C]` at row numbers `[E, 1]`. -/
abbrev scatterRowsDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section ScatterRows
variable {N E C w : Nat} (wf : ScatterDims.WF ⟨2, ![N, C]⟩ ⟨2, ![E, 1]⟩ ⟨2, ![E, C]⟩ [1] [0] [0] 1)
  (idx : IVec ⟨2, ![E, 1]⟩ w) (e : Fin E) (k : Fin C)

/-- On the row axis an update starts at its edge's row number, read signed. -/
theorem scatterRows_start0 : (scatterRowsDims N E C wf).start (ix2 e k) idx 0 = (idx (ix2 e (0 : Fin 1))).toInt := by
  unfold ScatterDims.start
  rw [dif_pos (show (0 : Fin 2) ∈ (scatterRowsDims N E C wf).scatterDimsToOperandDims from List.mem_singleton.mpr rfl)]
  have hsi : (scatterRowsDims N E C wf).siIdx (ix2 e k) ⟨List.idxOf (0 : Fin 2) (scatterRowsDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis it starts at zero … -/
theorem scatterRows_start1 : (scatterRowsDims N E C wf).start (ix2 e k) idx 1 = 0 := by
  unfold ScatterDims.start
  rw [dif_neg (show (1 : Fin 2) ∉ ([0] : List (Fin 2)) by decide)]

/-- … the row axis has no window coordinate … -/
theorem scatterRows_window0 : (scatterRowsDims N E C wf).window (ix2 e k) 0 = 0 := by
  unfold ScatterDims.window
  rw [dif_neg (fun h => ((mem_kept _ _).mp h) (List.mem_singleton.mpr rfl))]

/-- … and the column axis has the update's column. -/
theorem scatterRows_window1 : (scatterRowsDims N E C wf).window (ix2 e k) 1 = k.val := by
  unfold ScatterDims.window
  rw [dif_pos ((mem_kept _ _).mpr (show (1 : Fin 2) ∉ ([0] : List (Fin 2)) by decide))]
  rfl

/-- WHERE AN UPDATE LANDS: update `(e, k)` lands on element `(d, k')` exactly when edge `e`'s row number, read signed,
    is `d` and the columns agree. -/
theorem scatterRows_resultIdx_iff (d : Fin N) (k' : Fin C) :
    (scatterRowsDims N E C wf).resultIdx? (ix2 e k) idx = some (ix2 d k')
      ↔ (idx (ix2 e (0 : Fin 1))).toInt = (d.val : Int) ∧ k = k' := by
  unfold ScatterDims.resultIdx?
  constructor
  · intro h
    by_cases hb : ∀ a, 0 ≤ (scatterRowsDims N E C wf).start (ix2 e k) idx a + (scatterRowsDims N E C wf).window (ix2 e k) a
        ∧ (scatterRowsDims N E C wf).start (ix2 e k) idx a + (scatterRowsDims N E C wf).window (ix2 e k) a < (⟨2, ![N, C]⟩ : Shape).size a
    · rw [dif_pos hb] at h
      have hf := Option.some.inj h
      have h0 : ((scatterRowsDims N E C wf).start (ix2 e k) idx 0 + ((scatterRowsDims N E C wf).window (ix2 e k) 0 : Nat)).toNat = d.val :=
        congrArg Fin.val (congrFun hf 0)
      have h1 : ((scatterRowsDims N E C wf).start (ix2 e k) idx 1 + ((scatterRowsDims N E C wf).window (ix2 e k) 1 : Nat)).toNat = k'.val :=
        congrArg Fin.val (congrFun hf 1)
      have hb0 := (hb 0).1
      rw [scatterRows_start0, scatterRows_window0] at h0 hb0
      rw [scatterRows_start1, scatterRows_window1] at h1
      exact ⟨by omega, Fin.ext (by omega)⟩
    · rw [dif_neg hb] at h
      exact absurd h (by simp)
  · rintro ⟨hv, rfl⟩
    have hb : ∀ a, 0 ≤ (scatterRowsDims N E C wf).start (ix2 e k) idx a + (scatterRowsDims N E C wf).window (ix2 e k) a
        ∧ (scatterRowsDims N E C wf).start (ix2 e k) idx a + (scatterRowsDims N E C wf).window (ix2 e k) a < (⟨2, ![N, C]⟩ : Shape).size a := by
      intro a
      match a with
      | ⟨0, _⟩ =>
        show 0 ≤ (scatterRowsDims N E C wf).start (ix2 e k) idx 0 + ((scatterRowsDims N E C wf).window (ix2 e k) 0 : Nat)
          ∧ (scatterRowsDims N E C wf).start (ix2 e k) idx 0 + ((scatterRowsDims N E C wf).window (ix2 e k) 0 : Nat) < (N : Int)
        rw [scatterRows_start0, scatterRows_window0, hv]
        have := d.isLt
        omega
      | ⟨1, _⟩ =>
        show 0 ≤ (scatterRowsDims N E C wf).start (ix2 e k) idx 1 + ((scatterRowsDims N E C wf).window (ix2 e k) 1 : Nat)
          ∧ (scatterRowsDims N E C wf).start (ix2 e k) idx 1 + ((scatterRowsDims N E C wf).window (ix2 e k) 1 : Nat) < (C : Int)
        rw [scatterRows_start1, scatterRows_window1]
        have := k.isLt
        omega
    rw [dif_pos hb]
    refine congrArg some (funext fun a => Fin.ext ?_)
    match a with
    | ⟨0, _⟩ =>
      show ((scatterRowsDims N E C wf).start (ix2 e k) idx 0 + ((scatterRowsDims N E C wf).window (ix2 e k) 0 : Nat)).toNat = d.val
      rw [scatterRows_start0, scatterRows_window0, hv]
      omega
    | ⟨1, _⟩ =>
      show ((scatterRowsDims N E C wf).start (ix2 e k) idx 1 + ((scatterRowsDims N E C wf).window (ix2 e k) 1 : Nat)).toNat = k.val
      rw [scatterRows_start1, scatterRows_window1]
      omega

/-- A `segment_sum` into `[N, C]`, read at `(d, k)`: what was there plus the messages, at column `k`, of the edges sent to
    row `d`. -/
theorem scatterAddRows_apply (x : (⟨2, ![N, C]⟩ : Shape).Idx → EReal) (upd : (⟨2, ![E, C]⟩ : Shape).Idx → EReal) (d : Fin N) :
    Ideal.hostScatterAdd (scatterRowsDims N E C wf) x idx upd (ix2 d k) = x (ix2 d k) + ∑ e ∈ edgesInto idx d, upd (ix2 e k) := by
  unfold Ideal.hostScatterAdd
  congr 1
  have key : ∀ j : (⟨2, ![E, C]⟩ : Shape).Idx, (scatterRowsDims N E C wf).resultIdx? j idx = some (ix2 d k) →
      (idx (ix2 (j 0) (0 : Fin 1))).toInt = (d.val : Int) ∧ j = ix2 (j 0) k := by
    intro j hj
    have h := (scatterRows_resultIdx_iff wf idx (j 0) (j 1) d k).mp
      ((congrArg (fun q => (scatterRowsDims N E C wf).resultIdx? q idx) (eq_ix2 j)).symm.trans hj)
    exact ⟨h.1, (eq_ix2 j).trans (congrArg (fun q : Fin C => (ix2 (j 0) q : (⟨2, ![E, C]⟩ : Shape).Idx)) h.2)⟩
  refine Finset.sum_bij' (fun j _ => j 0) (fun e _ => ix2 e k) ?_ ?_ ?_ ?_ ?_
  · intro j hj
    exact (mem_edgesInto idx d (j 0)).mpr (key j (Finset.mem_filter.mp hj).2).1
  · intro e he
    exact Finset.mem_filter.mpr ⟨Finset.mem_univ _,
      (scatterRows_resultIdx_iff wf idx e k d k).mpr ⟨(mem_edgesInto idx d e).mp he, rfl⟩⟩
  · intro j hj
    exact (key j (Finset.mem_filter.mp hj).2).2.symm
  · intro e _
    rfl
  · intro j hj
    exact congrArg upd (key j (Finset.mem_filter.mp hj).2).2

end ScatterRows

/-- The dimension numbers of a `segment_sum` of elements `[E]` into `[N]` at row numbers `[E, 1]`. -/
abbrev scatterEltsDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section ScatterElts
variable {N E w : Nat} (wf : ScatterDims.WF ⟨1, ![N]⟩ ⟨2, ![E, 1]⟩ ⟨1, ![E]⟩ [] [0] [0] 1)
  (idx : IVec ⟨2, ![E, 1]⟩ w) (e : Fin E)

theorem scatterElts_start0 : (scatterEltsDims N E wf).start (ix1 e) idx 0 = (idx (ix2 e (0 : Fin 1))).toInt := by
  unfold ScatterDims.start
  rw [dif_pos (show (0 : Fin 1) ∈ (scatterEltsDims N E wf).scatterDimsToOperandDims from List.mem_singleton.mpr rfl)]
  have hsi : (scatterEltsDims N E wf).siIdx (ix1 e) ⟨List.idxOf (0 : Fin 1) (scatterEltsDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem scatterElts_window0 : (scatterEltsDims N E wf).window (ix1 e) 0 = 0 := by
  unfold ScatterDims.window
  rw [dif_neg (fun h => ((mem_kept _ _).mp h) (List.mem_singleton.mpr rfl))]

/-- Update `e` lands on element `d` exactly when edge `e`'s row number, read signed, is `d`. -/
theorem scatterElts_resultIdx_iff (d : Fin N) :
    (scatterEltsDims N E wf).resultIdx? (ix1 e) idx = some (ix1 d) ↔ (idx (ix2 e (0 : Fin 1))).toInt = (d.val : Int) := by
  unfold ScatterDims.resultIdx?
  constructor
  · intro h
    by_cases hb : ∀ a, 0 ≤ (scatterEltsDims N E wf).start (ix1 e) idx a + (scatterEltsDims N E wf).window (ix1 e) a
        ∧ (scatterEltsDims N E wf).start (ix1 e) idx a + (scatterEltsDims N E wf).window (ix1 e) a < (⟨1, ![N]⟩ : Shape).size a
    · rw [dif_pos hb] at h
      have hf := Option.some.inj h
      have h0 : ((scatterEltsDims N E wf).start (ix1 e) idx 0 + ((scatterEltsDims N E wf).window (ix1 e) 0 : Nat)).toNat = d.val :=
        congrArg Fin.val (congrFun hf 0)
      have hb0 := (hb 0).1
      rw [scatterElts_start0, scatterElts_window0] at h0 hb0
      omega
    · rw [dif_neg hb] at h
      exact absurd h (by simp)
  · intro hv
    have hb : ∀ a, 0 ≤ (scatterEltsDims N E wf).start (ix1 e) idx a + (scatterEltsDims N E wf).window (ix1 e) a
        ∧ (scatterEltsDims N E wf).start (ix1 e) idx a + (scatterEltsDims N E wf).window (ix1 e) a < (⟨1, ![N]⟩ : Shape).size a := by
      intro a
      match a with
      | ⟨0, _⟩ =>
        show 0 ≤ (scatterEltsDims N E wf).start (ix1 e) idx 0 + ((scatterEltsDims N E wf).window (ix1 e) 0 : Nat)
          ∧ (scatterEltsDims N E wf).start (ix1 e) idx 0 + ((scatterEltsDims N E wf).window (ix1 e) 0 : Nat) < (N : Int)
        rw [scatterElts_start0, scatterElts_window0, hv]
        have := d.isLt
        omega
    rw [dif_pos hb]
    refine congrArg some (funext fun a => Fin.ext ?_)
    match a with
    | ⟨0, _⟩ =>
      show ((scatterEltsDims N E wf).start (ix1 e) idx 0 + ((scatterEltsDims N E wf).window (ix1 e) 0 : Nat)).toNat = d.val
      rw [scatterElts_start0, scatterElts_window0, hv]
      omega

/-- A `segment_sum` into `[N]`, read at `d`: what was there plus the messages of the edges sent to row `d`. -/
theorem scatterAddElts_apply (x : (⟨1, ![N]⟩ : Shape).Idx → EReal) (upd : (⟨1, ![E]⟩ : Shape).Idx → EReal) (d : Fin N) :
    Ideal.hostScatterAdd (scatterEltsDims N E wf) x idx upd (ix1 d) = x (ix1 d) + ∑ e ∈ edgesInto idx d, upd (ix1 e) := by
  unfold Ideal.hostScatterAdd
  congr 1
  refine Finset.sum_bij' (fun j _ => j 0) (fun e _ => ix1 e) ?_ ?_ ?_ ?_ ?_
  · intro j hj
    exact (mem_edgesInto idx d (j 0)).mpr ((scatterElts_resultIdx_iff wf idx (j 0) d).mp
      ((congrArg (fun q => (scatterEltsDims N E wf).resultIdx? q idx) (eq_ix1 j)).symm.trans (Finset.mem_filter.mp hj).2))
  · intro e he
    exact Finset.mem_filter.mpr ⟨Finset.mem_univ _, (scatterElts_resultIdx_iff wf idx e d).mpr ((mem_edgesInto idx d e).mp he)⟩
  · intro j _
    exact (eq_ix1 j).symm
  · intro e _
    rfl
  · intro j _
    exact congrArg upd (eq_ix1 j)

end ScatterElts

/-! ## Row numbers made nonnegative

`x[idx]` first turns a negative row number `v` into `v + N` (python's indexing from the end) and then gathers. For an edge
whose number, read signed, is a row `d` of the table, nothing changes. -/

/-- A row number that is a row of the table is not negative, so the python-style wrap leaves it alone. -/
theorem wrap_of_toInt (v c : BitVec 32) (d : Nat) (h : v.toInt = (d : Int)) :
    Scalar.select (IntOp.cmpi .slt v 0#32) (IntOp.addi v c) v = v := by
  have h0 : IntOp.cmpi .slt v 0#32 = 0#1 := by
    have hlt : ¬ v.toInt < 0 := by rw [h]; omega
    simp [IntOp.cmpi, BitVec.slt, hlt]
  rw [h0]
  exact if_neg (by decide)

end Cert.Lib.Rows

end
-- ==== Proof.LibRealMix.lean ====
/-
  Extended reals that are real numbers, and one law that holds for them: weighting before or after a sum over a set.

  `IsReal x` says the extended real `x` is a real number. Reals are closed under `+`, `·`, `max`, finite sums and real
  powers (`Ideal.pow`), and a finite sum of reals taken on the extended reals is the real sum (`coe_sum`).

  The law (`mix_ereal`): for a finite set `Es`, real entries `H e k` (`k` over a finite type), real weights `W k`, a real
  factor `d`, a real shift `b` and `z = 0`,

      (z + ∑ e ∈ Es, ∑ k, H e k · W k) · d + b = ∑ k, ((z + ∑ e ∈ Es, H e k) · d) · W k + b :

  a finite sum commutes with a finite sum and a real factor distributes over a finite sum of reals. On the extended reals
  proper neither holds (∞ − ∞), so the hypotheses are used.
-/
import Idealize.ShloMosaic.PureOps.Ideal

noncomputable section

namespace Cert.GraphConv

open Idealize.ShloMosaic

/-- An extended real that is a real number. -/
def IsReal (x : EReal) : Prop := ∃ r : ℝ, x = (r : EReal)

theorem isReal_zero : IsReal 0 := ⟨0, rfl⟩
theorem isReal_one : IsReal 1 := ⟨1, rfl⟩
theorem isReal_coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h <;> rw [h] <;> assumption

/-- A finite sum of reals, taken on the extended reals, is the real sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isReal_sum {ι : Type} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A real base to a real exponent is a real. -/
theorem IsReal.pow {x y : EReal} (hx : IsReal x) (hy : IsReal y) : IsReal (Ideal.pow x y) := by
  obtain ⟨a, rfl⟩ := hx; obtain ⟨b, rfl⟩ := hy; exact ⟨Real.rpow a b, rfl⟩

/-! ## The real law -/

/-- Multiplying by the weights after or before summing over the edges, over the reals. -/
theorem mix_real {ι κ : Type} [Fintype κ] (Es : Finset ι) (h : ι → κ → ℝ) (w : κ → ℝ) (d b : ℝ) :
    (0 + ∑ e ∈ Es, ∑ k, h e k * w k) * d + b = ∑ k, ((0 + ∑ e ∈ Es, h e k) * d) * w k + b := by
  simp only [zero_add]
  rw [Finset.sum_comm, Finset.sum_mul]
  congr 1
  refine Finset.sum_congr rfl fun k _ => ?_
  rw [← Finset.sum_mul]; ring

/-- The same on the extended reals, for real entries. -/
theorem mix_ereal {ι κ : Type} [Fintype κ] (Es : Finset ι) (H : ι → κ → EReal) (W : κ → EReal) (z d b : EReal)
    (hz : z = 0) (hH : ∀ e k, IsReal (H e k)) (hW : ∀ k, IsReal (W k)) (hd : IsReal d) (hb : IsReal b) :
    (z + ∑ e ∈ Es, ∑ k, H e k * W k) * d + b = ∑ k, ((z + ∑ e ∈ Es, H e k) * d) * W k + b := by
  choose h hh using hH
  choose w hw using hW
  obtain ⟨d', rfl⟩ := hd
  obtain ⟨b', rfl⟩ := hb
  subst hz
  have e1 : ∀ e, (∑ k, H e k * W k) = ((∑ k, h e k * w k : ℝ) : EReal) := fun e => by
    rw [coe_sum]; exact Finset.sum_congr rfl fun k _ => by rw [hh, hw, EReal.coe_mul]
  have e2 : ∀ k, (∑ e ∈ Es, H e k) = ((∑ e ∈ Es, h e k : ℝ) : EReal) := fun k => by
    rw [coe_sum]; exact Finset.sum_congr rfl fun e _ => hh e k
  have lhs : (0 + ∑ e ∈ Es, ∑ k, H e k * W k) * (d' : EReal) + (b' : EReal)
      = (((0 + ∑ e ∈ Es, ∑ k, h e k * w k) * d' + b' : ℝ) : EReal) := by
    rw [Finset.sum_congr rfl fun e _ => e1 e, ← coe_sum, EReal.coe_add, EReal.coe_mul, EReal.coe_add, EReal.coe_zero]
  have rhs : (∑ k, ((0 + ∑ e ∈ Es, H e k) * (d' : EReal)) * W k) + (b' : EReal)
      = ((∑ k, ((0 + ∑ e ∈ Es, h e k) * d') * w k + b' : ℝ) : EReal) := by
    rw [EReal.coe_add, coe_sum]
    congr 1
    refine Finset.sum_congr rfl fun k _ => ?_
    rw [e2 k, hw k, EReal.coe_mul, EReal.coe_mul, EReal.coe_add, EReal.coe_zero]
  rw [lhs, rhs, mix_real]

end Cert.GraphConv

end
-- ==== Proof.ConvSpec.lean ====
/-
  The two orders of the second graph-convolution layer over one edge list, and that they agree on real data.

  Tables are indexed by literal coordinates. `A` is the first layer's aggregated messages (one row of 64 per node),
  `nd` and `ns` the destination- and source-side scales (one per node), `sI` the column of source row numbers and `dI` the
  column of destination row numbers (one per edge). An edge reads the row its source number selects (clamped into the
  table) and is added into the row its destination number names (dropped when that is no row).

      hid r k        = max (∑ q, (A (r, q) · nd r) · W1 (q, k) + b1 k) 0 · ns r
      weighted r j   = ∑ k, hid r k · W2 (k, j)
      mixEarly d j   = (0 + ∑ e into d, weighted (src e) j) · nd d + b2 j       -- weights first, then the edges
      mixLate  d j   = ∑ k, ((0 + ∑ e into d, hid (src e) k) · nd d) · W2 (k, j) + b2 j   -- edges first, then weights
-/
import Idealize.ShloMosaic.PureOps.Ideal
import Idealize.ShloMosaic.Lib.ValueIdx
import proofs.«149882_j33784212750626_2_alg».proof.Proof.LibRows
import proofs.«149882_j33784212750626_2_alg».proof.Proof.LibRealMix

noncomputable section

namespace Cert.GraphConv

open Idealize.ShloMosaic Idealize.ShloMosaic.ValueIdx Cert.Lib.Rows

/-- A table of `n` rows and `c` columns of extended reals. -/
abbrev Tab (n c : Nat) := (⟨2, ![n, c]⟩ : Shape).Idx → EReal
/-- A vector of `n` extended reals. -/
abbrev Col (n : Nat) := (⟨1, ![n]⟩ : Shape).Idx → EReal
/-- One 32-bit row number per edge. -/
abbrev EdgeCol := IVec ⟨2, ![1700000, 1]⟩ 32

/-- The value of the all-zero word. -/
abbrev z₀ : EReal := Ideal.ofBits .f32 0x00000000#32

theorem z₀_eq : z₀ = 0 := by
  simp [Ideal.ofBits, Ideal.ieee]

/-- The row an edge reads. -/
def srcRow (sI : EdgeCol) (e : Fin 1700000) : Fin 100000 := rowOf 100000 (by decide) (sI (ix2 e (0 : Fin 1)))

/-- Hidden features of row `r`: the first dense layer, rectified, rescaled on the source side. -/
def hid (A : Tab 100000 64) (nd ns : Col 100000) (W1 : Tab 64 64) (b1 : Col 64) (r : Fin 100000) (k : Fin 64) : EReal :=
  max ((∑ q : Fin 64, (A (ix2 r q) * nd (ix1 r)) * W1 (ix2 q k)) + b1 (ix1 k)) z₀ * ns (ix1 r)

/-- Weights first, then the edges. -/
def mixEarly (A : Tab 100000 64) (nd ns : Col 100000) (W1 : Tab 64 64) (b1 : Col 64) (W2 : Tab 64 32) (b2 : Col 32)
    (sI dI : EdgeCol) (d : Fin 100000) (j : Fin 32) : EReal :=
  (z₀ + ∑ e ∈ edgesInto dI d, ∑ k : Fin 64, hid A nd ns W1 b1 (srcRow sI e) k * W2 (ix2 k j)) * nd (ix1 d) + b2 (ix1 j)

/-- Edges first, then the weights. -/
def mixLate (A : Tab 100000 64) (nd ns : Col 100000) (W1 : Tab 64 64) (b1 : Col 64) (W2 : Tab 64 32) (b2 : Col 32)
    (sI dI : EdgeCol) (d : Fin 100000) (j : Fin 32) : EReal :=
  (∑ k : Fin 64, ((z₀ + ∑ e ∈ edgesInto dI d, hid A nd ns W1 b1 (srcRow sI e) k) * nd (ix1 d)) * W2 (ix2 k j)) + b2 (ix1 j)

/-- Hidden features of real data are real. -/
theorem hid_real {A : Tab 100000 64} {nd ns : Col 100000} {W1 : Tab 64 64} {b1 : Col 64}
    (hA : ∀ i, IsReal (A i)) (hnd : ∀ i, IsReal (nd i)) (hns : ∀ i, IsReal (ns i)) (hW1 : ∀ i, IsReal (W1 i))
    (hb1 : ∀ i, IsReal (b1 i)) (r : Fin 100000) (k : Fin 64) : IsReal (hid A nd ns W1 b1 r k) := by
  unfold hid
  refine IsReal.mul (IsReal.max (IsReal.add (isReal_sum _ _ fun q _ => ((hA _).mul (hnd _)).mul (hW1 _)) (hb1 _)) ?_) (hns _)
  rw [z₀_eq]; exact isReal_zero

/-- On real data the two orders agree. -/
theorem mixEarly_eq_mixLate {A : Tab 100000 64} {nd ns : Col 100000} {W1 : Tab 64 64} {b1 : Col 64} {W2 : Tab 64 32}
    {b2 : Col 32} (hA : ∀ i, IsReal (A i)) (hnd : ∀ i, IsReal (nd i)) (hns : ∀ i, IsReal (ns i))
    (hW1 : ∀ i, IsReal (W1 i)) (hb1 : ∀ i, IsReal (b1 i)) (hW2 : ∀ i, IsReal (W2 i)) (hb2 : ∀ i, IsReal (b2 i))
    (sI dI : EdgeCol) (d : Fin 100000) (j : Fin 32) :
    mixEarly A nd ns W1 b1 W2 b2 sI dI d j = mixLate A nd ns W1 b1 W2 b2 sI dI d j :=
  mix_ereal (edgesInto dI d) (fun e k => hid A nd ns W1 b1 (srcRow sI e) k) (fun k => W2 (ix2 k j)) z₀ (nd (ix1 d))
    (b2 (ix1 j)) z₀_eq (fun e k => hid_real hA hnd hns hW1 hb1 _ k) (fun k => hW2 _) (hnd _) (hb2 _)

end Cert.GraphConv

end
-- ==== Proof.KernelValue.lean ====
/-
  The idealized kernel's result, read at an index, is the weights-first order of the second layer.

  After the first launch its output array holds, at row `r` and column `j`, the hidden features of row `r` already
  multiplied by `W2`: `∑ k, hid r k · W2 (k, j)`. The host operations between the launches gather those 32-wide rows along the
  edges and scatter-add them into their destination rows; the second launch rescales each row by the destination scale
  and adds the bias. So the result at `(d, j)` is `(0 + ∑ e into d, ∑ k, hid (src e) k · W2 (k, j)) · nd d + b2 j`, over the
  same stages (first aggregation, scales, row-number columns) the reference is read through.
-/
import proofs.«149882_j33784212750626_2_alg».proof.Proof.RunOut
import proofs.«149882_j33784212750626_2_alg».proof.Proof.HiddenRows
import proofs.«149882_j33784212750626_2_alg».proof.Proof.ScaledRows
import proofs.«149882_j33784212750626_2_alg».proof.Proof.KernelHost
import proofs.«149882_j33784212750626_2_alg».proof.Proof.ConvSpec
import proofs.«149882_j33784212750626_2_alg».proof.Proof.LibRows

set_option maxRecDepth 16384

noncomputable section

namespace Cert.KernelIdeal.Conv

open Cert.KernelIdeal Cert.KernelIdeal.Gen Cert.KernelIdeal.Host Idealize.ShloMosaic Idealize.ShloMosaic.ValueIdx Idealize.ShloMosaic.TcCoe Idealize.SL.Sem
open Idealize.ShloMosaic.StableHlo Cert.Lib.Rows Cert.GraphConv
open Cert.ReferenceIdeal.Read (val_main_v1 val_main_v2 val_main_v12 val_main_v15 val_main_v28 val_main_v45 val_main_v48)

/-- A scatter-add of 32-wide rows at `(d, j)`: what was there plus the rows of the edges into `d`. -/
theorem scatter32_apply (x : FVec Ideal S100000x32 .f32) (idx : IVec S1700000x1 32) (upd : FVec Ideal S1700000x32 .f32)
    (d : Fin 100000) (j : Fin 32) :
    Host.scatterAdd (F := Ideal) (φ := .f32) scatter_S100000x32_S1700000x1_S1700000x32_1_0_0_1 x idx upd (ix2 d j)
      = x (ix2 d j) + ∑ e ∈ edgesInto idx d, upd (ix2 e j) :=
  scatterAddRows_apply (N := 100000) (E := 1700000) (C := 32) _ idx j x upd d

/-- A gather of 32-wide rows at `(e, j)`: the table at the row edge `e` reads. -/
theorem gather32_apply (x : FVec Ideal S100000x32 .f32) (idx : IVec S1700000x1 32) (e : Fin 1700000) (j : Fin 32) :
    Host.gather gather_S100000x32_S1700000x1_S1700000x32_1_0_n_n_0_1_132 x idx (ix2 e j) = x (ix2 (srcRow idx e) j) :=
  gatherRows_apply (N := 100000) (E := 1700000) (C := 32) (by decide) _ x idx e j

/-! ## The stretch between the launches, from arbitrary contents -/

section Stretch
variable (U : Valuation τ sig (Elt Ideal))

theorem s5_v42 : after (hostOps1 (F := Ideal)) U (Proc.devRef .tc main_v42)
    = Host.scatterAdd (F := Ideal) (φ := .f32) scatter_S100000x32_S1700000x1_S1700000x32_1_0_0_1
        (broadcastInDim S100000x32 ![] bcast_S_S100000x32 (constant S_ .f32 0x00000000#32))
        (broadcastInDim S1700000x1 ![0] bcast_S1700000_S1700000x1_0 (U (Proc.devRef .tc main_v2)))
        (Host.gather gather_S100000x32_S1700000x1_S1700000x32_1_0_n_n_0_1_132 (U (Proc.devRef .tc main_v32))
          (broadcastInDim S1700000x1 ![0] bcast_S1700000_S1700000x1_0
            (select (cmpi .slt (U (Proc.devRef .tc main_v1)) (broadcastInDim S1700000 ![] bcast_S_S1700000 (constantI S_ 32 0#32)))
              (addi (U (Proc.devRef .tc main_v1)) (broadcastInDim S1700000 ![] bcast_S_S1700000 (constantI S_ 32 100000#32)))
              (U (Proc.devRef .tc main_v1))))) := by
  dsimp only [hostOps1]; after_results; try rfl

theorem s5_v43 (r : Fin 100000) : after (hostOps1 (F := Ideal)) U (Proc.devRef .tc main_v43) (ix2 r (0 : Fin 1))
    = U (Proc.devRef .tc main_v15) (ix1 r) := by
  dsimp only [hostOps1]; after_results
  exact Cert.LibKeepdims.shapeCast_a_a1_apply _ _ r 0

theorem s5_v44 (j : Fin 32) : after (hostOps1 (F := Ideal)) U (Proc.devRef .tc main_v44) (ix2 (0 : Fin 1) j)
    = U (Proc.devRef .tc main_arg6) (ix1 j) := by
  dsimp only [hostOps1]; after_results
  exact Cert.LibBiasRows.row_of_vector _ _ j

end Stretch

section Levels
variable (m : (ℓ : Loc nD τ sig) → Buf (Elt Ideal) ℓ) (ρ : Dev nD → PrngReg) (c : Dev nD)

/-! ## After the first launch -/

theorem L6_v32 : W6 m ρ c (Proc.devRef .tc main_v32)
    = Hidden.rowsOut (V5 m ρ c main_v28) (V5 m ρ c main_v29) (V5 m ρ c main_v30) (V5 m ρ c main_arg3) (V5 m ρ c main_v31)
        (V5 m ρ c main_arg5) :=
  (W6_arr m ρ c 6).trans (Hidden.final (V5 m ρ) c)

theorem L6_v1 : W6 m ρ c (Proc.devRef .tc main_v1) = val_main_v1 (F := Ideal) (m ((c : Thread nD τ).loc main_arg1)) :=
  (W6_of_ne m ρ c main_v1 (by decide)).trans (L5_v1 m ρ c)
theorem L6_v2 : W6 m ρ c (Proc.devRef .tc main_v2) = val_main_v2 (F := Ideal) (m ((c : Thread nD τ).loc main_arg2)) :=
  (W6_of_ne m ρ c main_v2 (by decide)).trans (L5_v2 m ρ c)
theorem L6_v15 : W6 m ρ c (Proc.devRef .tc main_v15) = val_main_v15 (F := Ideal) (m ((c : Thread nD τ).loc main_arg2)) :=
  (W6_of_ne m ρ c main_v15 (by decide)).trans (L5_v15 m ρ c)
theorem L6_arg6 : W6 m ρ c (Proc.devRef .tc main_arg6) = (m ((c : Thread nD τ).loc main_arg6)) :=
  (W6_of_ne m ρ c main_arg6 (by decide)).trans (L5_arg6 m ρ c)

/-- The first launch's output at row `r`, column `j`: the hidden features of row `r` times column `j` of `W2`. -/
theorem rows_apply (r : Fin 100000) (j : Fin 32) :
    W6 m ρ c (Proc.devRef .tc main_v32) (ix2 r j)
      = ∑ k : Fin 64, hid (val_main_v28 (F := Ideal) (m ((c : Thread nD τ).loc main_arg0)) (m ((c : Thread nD τ).loc main_arg1)) (m ((c : Thread nD τ).loc main_arg2))) (val_main_v15 (F := Ideal) (m ((c : Thread nD τ).loc main_arg2))) (val_main_v12 (F := Ideal) (m ((c : Thread nD τ).loc main_arg1)))
          (m ((c : Thread nD τ).loc main_arg3)) (m ((c : Thread nD τ).loc main_arg4)) r k * (m ((c : Thread nD τ).loc main_arg5)) (ix2 k j) := by
  rw [L6_v32]
  show Hidden.rowsOutAt (V5 m ρ c main_v28) (V5 m ρ c main_v29) (V5 m ρ c main_v30) (V5 m ρ c main_arg3) (V5 m ρ c main_v31)
        (V5 m ρ c main_arg5) r j = _
  have hA : V5 m ρ c main_v28 = val_main_v28 (F := Ideal) (m ((c : Thread nD τ).loc main_arg0)) (m ((c : Thread nD τ).loc main_arg1)) (m ((c : Thread nD τ).loc main_arg2)) := L5_v28 m ρ c
  have hD : V5 m ρ c main_v29 (ix2 r (0 : Fin 1)) = (val_main_v15 (F := Ideal) (m ((c : Thread nD τ).loc main_arg2))) (ix1 r) := L5_v29 m ρ c r
  have hS : V5 m ρ c main_v30 (ix2 r (0 : Fin 1)) = (val_main_v12 (F := Ideal) (m ((c : Thread nD τ).loc main_arg1))) (ix1 r) := L5_v30 m ρ c r
  have hW1 : V5 m ρ c main_arg3 = (m ((c : Thread nD τ).loc main_arg3)) := L5_arg3 m ρ c
  have hB : ∀ k : Fin 64, V5 m ρ c main_v31 (ix2 (0 : Fin 1) k) = (m ((c : Thread nD τ).loc main_arg4)) (ix1 k) := L5_v31 m ρ c
  have hW2 : V5 m ρ c main_arg5 = (m ((c : Thread nD τ).loc main_arg5)) := L5_arg5 m ρ c
  unfold Hidden.rowsOutAt hid
  simp only [hA, hD, hS, hW1, hB, hW2]

/-! ## The result -/

theorem out_eq : W8 m ρ c (Proc.devRef .tc main_v45)
    = Scaled.scaled (V7 m ρ c main_v42) (V7 m ρ c main_v43) (V7 m ρ c main_v44) :=
  (W8_arr m ρ c 3).trans (Scaled.final (V7 m ρ) c)

/-- The kernel's result at row `d`, column `j`. -/
theorem result_apply (d : Fin 100000) (j : Fin 32) :
    W8 m ρ c (Proc.devRef .tc main_v45) (ix2 d j)
      = mixEarly (val_main_v28 (F := Ideal) (m ((c : Thread nD τ).loc main_arg0)) (m ((c : Thread nD τ).loc main_arg1)) (m ((c : Thread nD τ).loc main_arg2))) (val_main_v15 (F := Ideal) (m ((c : Thread nD τ).loc main_arg2))) (val_main_v12 (F := Ideal) (m ((c : Thread nD τ).loc main_arg1)))
          (m ((c : Thread nD τ).loc main_arg3)) (m ((c : Thread nD τ).loc main_arg4)) (m ((c : Thread nD τ).loc main_arg5)) (m ((c : Thread nD τ).loc main_arg6)) (val_main_v45 (F := Ideal) (m ((c : Thread nD τ).loc main_arg1))) (val_main_v48 (F := Ideal) (m ((c : Thread nD τ).loc main_arg2))) d j := by
  rw [out_eq]
  show Scaled.scaledAt (V7 m ρ c main_v42) (V7 m ρ c main_v43) (V7 m ρ c main_v44) d j = _
  have h43 : V7 m ρ c main_v43 (ix2 d (0 : Fin 1)) = (val_main_v15 (F := Ideal) (m ((c : Thread nD τ).loc main_arg2))) (ix1 d) :=
    (s5_v43 (W6 m ρ c) d).trans (congrFun (L6_v15 m ρ c) _)
  have h44 : V7 m ρ c main_v44 (ix2 (0 : Fin 1) j) = (m ((c : Thread nD τ).loc main_arg6)) (ix1 j) :=
    (s5_v44 (W6 m ρ c) j).trans (congrFun (L6_arg6 m ρ c) _)
  have h42 : V7 m ρ c main_v42 (ix2 d j)
      = z₀ + ∑ e ∈ edgesInto (val_main_v48 (F := Ideal) (m ((c : Thread nD τ).loc main_arg2))) d, ∑ k : Fin 64,
          hid (val_main_v28 (F := Ideal) (m ((c : Thread nD τ).loc main_arg0)) (m ((c : Thread nD τ).loc main_arg1)) (m ((c : Thread nD τ).loc main_arg2))) (val_main_v15 (F := Ideal) (m ((c : Thread nD τ).loc main_arg2))) (val_main_v12 (F := Ideal) (m ((c : Thread nD τ).loc main_arg1))) (m ((c : Thread nD τ).loc main_arg3)) (m ((c : Thread nD τ).loc main_arg4))
            (srcRow (val_main_v45 (F := Ideal) (m ((c : Thread nD τ).loc main_arg1))) e) k * (m ((c : Thread nD τ).loc main_arg5)) (ix2 k j) := by
    refine (congrFun (s5_v42 (W6 m ρ c)) _).trans ?_
    rw [L6_v2, L6_v1, scatter32_apply]
    refine congrArg₂ (· + ·) rfl (Finset.sum_congr rfl fun e _ => ?_)
    rw [gather32_apply]
    exact rows_apply m ρ c _ j
  unfold Scaled.scaledAt mixEarly
  rw [h42, h43, h44]

end Levels

end Cert.KernelIdeal.Conv

end
-- ==== Proof.RefValue.lean ====
/-
  The reference's result, read at an index, is the edges-first order of the second layer.

  Reading the reference one operation at a time from its result backwards: the bias broadcast, the product with `W2` as a
  sum over the 64 hidden columns, the destination-side scale, the scatter-add of gathered rows as a sum over the edges
  into a row, and under it the hidden features (rectified dense layer of the first aggregation, rescaled on the source
  side). The first layer's aggregation, the two scales and the two row-number columns stay as the stages that compute them.
-/
import proofs.«149882_j33784212750626_2_alg».proof.Proof.Gen.ReferenceIdeal.Read
import proofs.«149882_j33784212750626_2_alg».proof.Proof.LibRows
import proofs.«149882_j33784212750626_2_alg».proof.Proof.ConvSpec

set_option maxRecDepth 16384

noncomputable section

namespace Cert.ReferenceIdeal.Conv

open Cert.ReferenceIdeal Cert.ReferenceIdeal.Read Idealize.ShloMosaic Idealize.ShloMosaic.ValueIdx Cert.Lib.Rows Cert.GraphConv

variable (x0 : (⟨S100000x64, .f32⟩ : BufTy).Contents (Elt Ideal)) (x1 x2 : (⟨S1600000, .i32⟩ : BufTy).Contents (Elt Ideal))
  (x3 : (⟨S64x64, .f32⟩ : BufTy).Contents (Elt Ideal)) (x4 : (⟨S64, .f32⟩ : BufTy).Contents (Elt Ideal))
  (x5 : (⟨S64x32, .f32⟩ : BufTy).Contents (Elt Ideal)) (x6 : (⟨S32, .f32⟩ : BufTy).Contents (Elt Ideal))

/-- A scatter-add of 64-wide rows at `(d, k)`: what was there plus the rows of the edges into `d`. -/
theorem scatter64_apply (x : (⟨S100000x64, .f32⟩ : BufTy).Contents (Elt Ideal)) (idx : (⟨S1700000x1, .i32⟩ : BufTy).Contents (Elt Ideal))
    (upd : (⟨S1700000x64, .f32⟩ : BufTy).Contents (Elt Ideal)) (d : Fin 100000) (k : Fin 64) :
    Host.scatterAdd (F := Ideal) (φ := .f32) scatter_S100000x64_S1700000x1_S1700000x64_1_0_0_1 x idx upd (ix2 d k)
      = x (ix2 d k) + ∑ e ∈ edgesInto idx d, upd (ix2 e k) :=
  scatterAddRows_apply (N := 100000) (E := 1700000) (C := 64) _ idx k x upd d

/-- A gather of 64-wide rows at `(e, k)`: the table at the row edge `e` reads. -/
theorem gather64_apply (x : (⟨S100000x64, .f32⟩ : BufTy).Contents (Elt Ideal)) (idx : (⟨S1700000x1, .i32⟩ : BufTy).Contents (Elt Ideal))
    (e : Fin 1700000) (k : Fin 64) :
    Host.gather gather_S100000x64_S1700000x1_S1700000x64_1_0_n_n_0_1_164 x idx (ix2 e k) = x (ix2 (srcRow idx e) k) :=
  gatherRows_apply (N := 100000) (E := 1700000) (C := 64) (by decide) _ x idx e k

/-- The destination scale spread over 64 columns, second use. -/
theorem nd2_read (d : Fin 100000) (k : Fin 64) : val_main_v51 (F := Ideal) x2 (ix2 d k) = val_main_v15 (F := Ideal) x2 (ix1 d) := by
  rw [val_main_v51_apply, val_main_v50_apply]
  exact congrArg (val_main_v15 (F := Ideal) x2) (funext fun a => Fin.ext (by match a with | ⟨0, _⟩ => rfl))

/-- The destination scale spread over 64 columns, first use. -/
theorem nd1_read (r : Fin 100000) (q : Fin 64) : val_main_v30 (F := Ideal) x2 (ix2 r q) = val_main_v15 (F := Ideal) x2 (ix1 r) := by
  rw [val_main_v30_apply, val_main_v29_apply]
  exact congrArg (val_main_v15 (F := Ideal) x2) (funext fun a => Fin.ext (by match a with | ⟨0, _⟩ => rfl))

/-- The source scale spread over 64 columns. -/
theorem ns_read (r : Fin 100000) (k : Fin 64) : val_main_v38 (F := Ideal) x1 (ix2 r k) = val_main_v12 (F := Ideal) x1 (ix1 r) := by
  rw [val_main_v38_apply, val_main_v37_apply]
  exact congrArg (val_main_v12 (F := Ideal) x1) (funext fun a => Fin.ext (by match a with | ⟨0, _⟩ => rfl))

/-- The first bias spread over the rows. -/
theorem b1_read (r : Fin 100000) (k : Fin 64) : val_main_v34 (F := Ideal) x4 (ix2 r k) = x4 (ix1 k) := by
  rw [val_main_v34_apply, val_main_v33_apply]
  exact congrArg x4 (funext fun a => Fin.ext (by match a with | ⟨0, _⟩ => rfl))

/-- The second bias spread over the rows. -/
theorem b2_read (d : Fin 100000) (j : Fin 32) : val_main_v55 (F := Ideal) x6 (ix2 d j) = x6 (ix1 j) := by
  rw [val_main_v55_apply, val_main_v54_apply]
  exact congrArg x6 (funext fun a => Fin.ext (by match a with | ⟨0, _⟩ => rfl))

/-- The hidden features, as the reference computes them. -/
theorem hid_read (r : Fin 100000) (k : Fin 64) :
    val_main_v39 (F := Ideal) x0 x1 x2 x3 x4 (ix2 r k)
      = hid (val_main_v28 (F := Ideal) x0 x1 x2) (val_main_v15 (F := Ideal) x2) (val_main_v12 (F := Ideal) x1) x3 x4 r k := by
  rw [val_main_v39_apply, val_main_v36_apply, val_main_v35_apply, val_main_v32_apply, ns_read, b1_read,
    val_main_call2_v0_apply, val_main_call2_cst_apply]
  unfold hid
  refine congrArg₂ (· * ·) (congrArg₂ max (congrArg₂ (· + ·) (Finset.sum_congr rfl fun q _ => ?_) rfl) rfl) rfl
  have el : lidx_main_v32 (ix2 r k) q = ix2 r q := funext fun a => Fin.ext (by match a with | ⟨0, _⟩ => rfl | ⟨1, _⟩ => rfl)
  have er : ridx_main_v32 (ix2 r k) q = ix2 q k := funext fun a => Fin.ext (by match a with | ⟨0, _⟩ => rfl | ⟨1, _⟩ => rfl)
  rw [el, er, val_main_v31_apply, nd1_read]
  rfl

/-- The reference's result at row `d`, column `j`. -/
theorem result_apply (d : Fin 100000) (j : Fin 32) :
    val_main_v56 (F := Ideal) x0 x1 x2 x3 x4 x5 x6 (ix2 d j)
      = mixLate (val_main_v28 (F := Ideal) x0 x1 x2) (val_main_v15 (F := Ideal) x2) (val_main_v12 (F := Ideal) x1) x3 x4 x5 x6
          (val_main_v45 (F := Ideal) x1) (val_main_v48 (F := Ideal) x2) d j := by
  rw [val_main_v56_apply, val_main_v53_apply, b2_read]
  unfold mixLate
  refine congrArg₂ (· + ·) (Finset.sum_congr rfl fun k _ => ?_) rfl
  have el : lidx_main_v53 (ix2 d j) k = ix2 d k := funext fun a => Fin.ext (by match a with | ⟨0, _⟩ => rfl | ⟨1, _⟩ => rfl)
  have er : ridx_main_v53 (ix2 d j) k = ix2 k j := funext fun a => Fin.ext (by match a with | ⟨0, _⟩ => rfl | ⟨1, _⟩ => rfl)
  rw [el, er, val_main_v52_apply, nd2_read]
  refine congrArg₂ (· * ·) (congrArg₂ (· * ·) ?_ rfl) rfl
  unfold val_main_v49
  rw [scatter64_apply, val_main_v47_apply, val_main_cst_10_apply]
  refine congrArg₂ (· + ·) rfl (Finset.sum_congr rfl fun e _ => ?_)
  unfold val_main_v46
  rw [gather64_apply, hid_read]

end Cert.ReferenceIdeal.Conv

end
-- ==== Proof.RefReal.lean ====
/-
  The stages both programs share hold real numbers when the feature table does.

  A node's degree is a finite sum of ones over the edges into it, so it is a real; the larger of it and one is a real;
  a real base to a real exponent is a real: the two scales are real. The first aggregation adds, into each row, finitely
  many products of a feature (real by hypothesis) with a scale: real again.
-/
import proofs.«149882_j33784212750626_2_alg».proof.Proof.Gen.ReferenceIdeal.Read
import proofs.«149882_j33784212750626_2_alg».proof.Proof.LibRows
import proofs.«149882_j33784212750626_2_alg».proof.Proof.ConvSpec
import proofs.«149882_j33784212750626_2_alg».proof.Proof.RefValue

set_option maxRecDepth 16384

noncomputable section

namespace Cert.ReferenceIdeal.Conv

open Cert.ReferenceIdeal Cert.ReferenceIdeal.Read Idealize.ShloMosaic Idealize.ShloMosaic.ValueIdx Cert.Lib.Rows Cert.GraphConv

/-- A 32-bit pattern whose exponent field is not all ones denotes a real number. -/
theorem word_real (b : BitVec 32) (h : (b.extractLsb' 23 8).toNat ≠ 2 ^ 8 - 1) : IsReal (Ideal.ofBits .f32 b) := by
  show IsReal (Ideal.ieee 8 23 b)
  unfold Ideal.ieee
  dsimp only
  rw [if_neg h]
  split <;> exact ⟨_, rfl⟩

theorem real_w0 : IsReal (Ideal.ofBits .f32 0x00000000#32) := word_real _ (by decide)
theorem real_w1 : IsReal (Ideal.ofBits .f32 0x3F800000#32) := word_real _ (by decide)
theorem real_wmh : IsReal (Ideal.ofBits .f32 0xBF000000#32) := word_real _ (by decide)

variable (x0 : (⟨S100000x64, .f32⟩ : BufTy).Contents (Elt Ideal)) (x1 x2 : (⟨S1600000, .i32⟩ : BufTy).Contents (Elt Ideal))

/-- A scatter-add of scalars at `d`: what was there plus the updates of the edges into `d`. -/
theorem scatterE_apply (x : (⟨S100000, .f32⟩ : BufTy).Contents (Elt Ideal)) (idx : (⟨S1700000x1, .i32⟩ : BufTy).Contents (Elt Ideal))
    (upd : (⟨S1700000, .f32⟩ : BufTy).Contents (Elt Ideal)) (d : Fin 100000) :
    Host.scatterAdd (F := Ideal) (φ := .f32) scatter_S100000_S1700000x1_S1700000_n_0_0_1 x idx upd (ix1 d)
      = x (ix1 d) + ∑ e ∈ edgesInto idx d, upd (ix1 e) :=
  scatterAddElts_apply (N := 100000) (E := 1700000) _ idx x upd d

/-- The out-degree count is a real. -/
theorem deg_src_real (r : Fin 100000) : IsReal (val_main_v6 (F := Ideal) x1 (ix1 r)) := by
  unfold val_main_v6
  rw [scatterE_apply, val_main_v4_apply, val_main_cst_0_apply]
  refine IsReal.add real_w0 (isReal_sum _ _ fun e _ => ?_)
  rw [val_main_v3_apply, val_main_cst_apply]
  exact real_w1

/-- The in-degree count is a real. -/
theorem deg_dst_real (r : Fin 100000) : IsReal (val_main_v9 (F := Ideal) x2 (ix1 r)) := by
  unfold val_main_v9
  rw [scatterE_apply, val_main_v7_apply, val_main_cst_1_apply]
  refine IsReal.add real_w0 (isReal_sum _ _ fun e _ => ?_)
  rw [val_main_v3_apply, val_main_cst_apply]
  exact real_w1

/-- The source-side scale is a real. -/
theorem ns_real (i : S100000.Idx) : IsReal (val_main_v12 (F := Ideal) x1 i) := by
  obtain ⟨r, rfl⟩ : ∃ r : Fin 100000, i = ix1 r := ⟨i 0, eq_ix1 i⟩
  rw [val_main_v12_apply, val_main_v10_apply, val_main_v11_apply, val_main_cst_3_apply, val_main_call0_v1_apply,
    val_main_call0_v0_apply, val_main_cst_2_apply]
  exact IsReal.pow (IsReal.max real_w1 (deg_src_real x1 r)) real_wmh

/-- The destination-side scale is a real. -/
theorem nd_real (i : S100000.Idx) : IsReal (val_main_v15 (F := Ideal) x2 i) := by
  obtain ⟨r, rfl⟩ : ∃ r : Fin 100000, i = ix1 r := ⟨i 0, eq_ix1 i⟩
  rw [val_main_v15_apply, val_main_v13_apply, val_main_v14_apply, val_main_cst_5_apply, val_main_call1_v1_apply,
    val_main_call1_v0_apply, val_main_cst_4_apply]
  exact IsReal.pow (IsReal.max real_w1 (deg_dst_real x2 r)) real_wmh

/-- The first aggregation of real features is real. -/
theorem agg_real (hx0 : ∀ i, IsReal (x0 i)) (i : S100000x64.Idx) : IsReal (val_main_v28 (F := Ideal) x0 x1 x2 i) := by
  obtain ⟨d, q, rfl⟩ : ∃ (d : Fin 100000) (q : Fin 64), i = ix2 d q := ⟨i 0, i 1, eq_ix2 i⟩
  unfold val_main_v28
  rw [scatter64_apply, val_main_v26_apply, val_main_cst_7_apply]
  refine IsReal.add real_w0 (isReal_sum _ _ fun e _ => ?_)
  unfold val_main_v25
  rw [gather64_apply, val_main_v18_apply, val_main_v17_apply, val_main_v16_apply]
  exact IsReal.mul (hx0 _) (ns_real x1 _)

end Cert.ReferenceIdeal.Conv

end
-- ==== Proof.FiniteInputs.lean ====
/-
  Under the precondition every float input holds real numbers.

  The precondition says, for each of the five float arrays, that the conjunction over all its entries of
  `|a i| < +∞` is true. An extended real whose absolute value `max x (−x)` is below `+∞` is neither infinity, so it is a
  real number.
-/
import proofs.«149882_j33784212750626_2_alg».proof.Defs
import proofs.«149882_j33784212750626_2_alg».proof.Proof.Gen.Pre_finite_inputs
import Idealize.ShloMosaic.Lib.ReduceAll
import Idealize.ShloMosaic.Lib.ValueIdx
import proofs.«149882_j33784212750626_2_alg».proof.Proof.LibRealMix

set_option maxRecDepth 16384

noncomputable section

namespace Cert.FiniteInputs

open Idealize.ShloMosaic Idealize.ShloMosaic.ValueIdx Cert.GraphConv Cert.Pre_finite_inputs

instance : Subsingleton S_.Idx := ⟨fun a b => funext fun d => d.elim0⟩

/-- An extended real whose absolute value compares below the value of the word `0x7F800000` (which is `+∞`) is a real. -/
theorem real_of_abs_lt (x : EReal)
    (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  have hlt : max x (-x) < ⊤ := by
    by_contra hn
    simp [Ideal.cmp, hn] at h
  induction x using EReal.rec with
  | bot => simp at hlt
  | coe r => exact ⟨r, rfl⟩
  | top => simp at hlt

/-- One array: if the conjunction over its entries of `|a i| < +∞` is true, every entry is a real. -/
theorem all_real {s : Shape} {axes : List (Fin s.rank)} (a : FVec Ideal s .f32)
    (hb : S_.BroadcastsInDim s (![] : Fin 0 → Fin s.rank)) (hr : s.ReducesTo axes S_) (hu : 0 < S_.numel)
    (h : Host.reduce IntOp.andi (cmpf .olt (Host.absf a) (broadcastInDim s ![] hb (constant (F := Ideal) S_ .f32 0x7F800000#32)))
      (constantI S_ 1 1#1) hr hu ix0 = 1#1) (i : s.Idx) : IsReal (a i) :=
  real_of_abs_lt (a i) (Host.reduce_andi_all _ _ hr hu ix0 h i)

/-- The precondition read back: the five float arrays hold reals. -/
theorem inputs_real (a0 : FVec Ideal S100000x64 .f32) (a1 a2 : IVec S1600000 32) (a3 : FVec Ideal S64x64 .f32)
    (a4 : FVec Ideal S64 .f32) (a5 : FVec Ideal S64x32 .f32) (a6 : FVec Ideal S32 .f32)
    (h : fn (F := Ideal) a0 a1 a2 a3 a4 a5 a6 = fun _ => 1#1) :
    (∀ i, IsReal (a0 i)) ∧ (∀ i, IsReal (a3 i)) ∧ (∀ i, IsReal (a4 i)) ∧ (∀ i, IsReal (a5 i)) ∧ (∀ i, IsReal (a6 i)) := by
  have h0 := congrFun h ix0
  dsimp only [fn, fn_part1] at h0
  obtain ⟨h0345, h6⟩ := IntOp.andi_eq_one.mp h0
  obtain ⟨h034, h5⟩ := IntOp.andi_eq_one.mp h0345
  obtain ⟨h03, h4⟩ := IntOp.andi_eq_one.mp h034
  obtain ⟨h0', h3⟩ := IntOp.andi_eq_one.mp h03
  exact ⟨all_real a0 _ _ _ h0', all_real a3 _ _ _ h3, all_real a4 _ _ _ h4, all_real a5 _ _ _ h5, all_real a6 _ _ _ h6⟩

end Cert.FiniteInputs

end
-- ==== Proof.lean ====
/-
  A two-layer graph convolution (self-loops added, symmetric degree normalisation) against its reference.

  Both programs compute the node scales `ns = max(out-degree, 1) ^ (−1/2)` and `nd = max(in-degree, 1) ^ (−1/2)`, the first
  aggregation `A = scatter-add over the edges of (features · ns)[source]`, and the hidden features
  `hid r k = max (∑ q, (A (r, q) · nd r) · W1 (q, k) + b1 k) 0 · ns r`.

  The reference then aggregates the hidden features along the edges, rescales by `nd`, multiplies by `W2` and adds `b2`.
  The kernel multiplies the hidden features by `W2` first (inside its first grid launch, which also does the first dense
  layer), aggregates the 32-wide products along the edges on the host, and rescales by `nd` and adds `b2` in its second
  launch. On the extended reals the two orders agree because every quantity involved is a real number: the inputs by the
  precondition, the degrees as finite sums of ones, the scales as real powers, and then sums and products of reals; for
  reals a finite sum over edges commutes with the finite sum over hidden columns and the factor `nd d` distributes.
  (The roundings to a narrower format in front of the kernel's two products are the identity on exact values.)

  The frames of the two kernel programs are the generated ones; the reference's frame is its generated run with the result
  dropped; nothing was rewritten by the idealisation, so that conjunct is trivial.
-/
import proofs.«149882_j33784212750626_2_alg».proof.Defs
import proofs.«149882_j33784212750626_2_alg».proof.Proof.Gen.Kernel
import proofs.«149882_j33784212750626_2_alg».proof.Proof.Gen.Kernel.Skeleton
import proofs.«149882_j33784212750626_2_alg».proof.Proof.Gen.Kernel.Launch
import proofs.«149882_j33784212750626_2_alg».proof.Proof.Gen.Kernel.Points
import proofs.«149882_j33784212750626_2_alg».proof.Proof.Gen.Kernel.Frame
import proofs.«149882_j33784212750626_2_alg».proof.Proof.Gen.KernelIdeal
import proofs.«149882_j33784212750626_2_alg».proof.Proof.Gen.KernelIdeal.Skeleton
import proofs.«149882_j33784212750626_2_alg».proof.Proof.Gen.KernelIdeal.Launch
import proofs.«149882_j33784212750626_2_alg».proof.Proof.Gen.KernelIdeal.Points
import proofs.«149882_j33784212750626_2_alg».proof.Proof.Gen.KernelIdeal.Frame
import proofs.«149882_j33784212750626_2_alg».proof.Proof.Gen.ReferenceIdeal
import proofs.«149882_j33784212750626_2_alg».proof.Proof.Gen.Pre_finite_inputs
import proofs.«149882_j33784212750626_2_alg».proof.Proof.Gen.ReferenceIdeal.Run
import proofs.«149882_j33784212750626_2_alg».proof.Proof.Gen.ReferenceIdeal.Read
import proofs.«149882_j33784212750626_2_alg».proof.Proof.RunOut
import proofs.«149882_j33784212750626_2_alg».proof.Proof.KernelValue
import proofs.«149882_j33784212750626_2_alg».proof.Proof.RefValue
import proofs.«149882_j33784212750626_2_alg».proof.Proof.RefReal
import proofs.«149882_j33784212750626_2_alg».proof.Proof.FiniteInputs
import proofs.«149882_j33784212750626_2_alg».proof.Proof.ConvSpec
import Idealize.ShloMosaic.Adequacy
import Idealize.ShloMosaic.Init

set_option maxRecDepth 16384

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, with the statement about the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end; the kernel's result is the weights-first order, the reference's the edges-first order, of the same real
    data: equal, index by index. -/
theorem algebraic : Cert.algebraic_KernelIdeal_ReferenceIdeal := by
  intro m ρ m' ρ' hpre hagree
  refine ⟨fun c => Cert.KernelIdeal.Gen.W8 m ρ c (Proc.devRef .tc Cert.KernelIdeal.main_v45),
    Cert.KernelIdeal.Out.run_out m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v56 m' c
    = Cert.KernelIdeal.Gen.W8 m ρ c (Proc.devRef .tc Cert.KernelIdeal.main_v45)
  rw [Cert.ReferenceIdeal.Read.val_main_v56_eq]
  obtain ⟨a0, a1, a2, a3, a4, a5, a6⟩ := hagree c
  rw [a0, a1, a2, a3, a4, a5, a6]
  obtain ⟨r0, r3, r4, r5, r6⟩ := Cert.FiniteInputs.inputs_real _ _ _ _ _ _ _ (hpre c)
  refine funext fun i => ?_
  obtain ⟨d, j, rfl⟩ : ∃ (d : Fin 100000) (j : Fin 32), i = ix2 d j := ⟨i 0, i 1, eq_ix2 i⟩
  rw [Cert.ReferenceIdeal.Conv.result_apply, Cert.KernelIdeal.Conv.result_apply]
  exact (Cert.GraphConv.mixEarly_eq_mixLate (Cert.ReferenceIdeal.Conv.agg_real _ _ _ r0) (Cert.ReferenceIdeal.Conv.nd_real _)
    (Cert.ReferenceIdeal.Conv.ns_real _) r3 r4 r5 r6 _ _ d j).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
